-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x32 : Shape := ⟨2, ![1000000, 32]⟩
abbrev S1000000x4 : Shape := ⟨2, ![1000000, 4]⟩
abbrev S64x160 : Shape := ⟨2, ![64, 160]⟩
abbrev S64 : Shape := ⟨1, ![64]⟩
abbrev S_ : Shape := ⟨0, ![]⟩

class Facts : Prop where
  bcast_S_S1000000x32 : S_.BroadcastsInDim S1000000x32 (![] : Fin 0 → Fin S1000000x32.rank)
  reducesTo_S1000000x32_S_d0_1 : S1000000x32.ReducesTo [0, 1] S_
  h_S_ : 0 < S_.numel
  bcast_S_S64x160 : S_.BroadcastsInDim S64x160 (![] : Fin 0 → Fin S64x160.rank)
  reducesTo_S64x160_S_d0_1 : S64x160.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S1000000x32 .f32) (main_arg1 : IVec S1000000x4 32) (main_arg2 : FVec F S64x160 .f32) (main_arg3 : FVec F S64 .f32) : IVec S_ 1 :=
  let main_v0 : FVec F S1000000x32 .f32 := Host.absf main_arg0
  let main_cst : FVec F S_ .f32 := constant S_ .f32 0x7F800000#32
  let main_v1 : FVec F S1000000x32 .f32 := broadcastInDim S1000000x32 ![] bcast_S_S1000000x32 main_cst
  let main_v2 : IVec S1000000x32 1 := cmpf .olt main_v0 main_v1
  let main_c : IVec S_ 1 := constantI S_ 1 1#1
  let main_v3 : IVec S_ 1 := (fun x v => Host.reduce IntOp.andi x v reducesTo_S1000000x32_S_d0_1 h_S_) main_v2 main_c
  let main_v4 : FVec F S64x160 .f32 := Host.absf main_arg2
  let main_cst_0 : FVec F S_ .f32 := constant S_ .f32 0x7F800000#32
  let main_v5 : FVec F S64x160 .f32 := broadcastInDim S64x160 ![] bcast_S_S64x160 main_cst_0
  let main_v6 : IVec S64x160 1 := cmpf .olt main_v4 main_v5
  let main_c_1 : IVec S_ 1 := constantI S_ 1 1#1
  let main_v7 : IVec S_ 1 := (fun x v => Host.reduce IntOp.andi x v reducesTo_S64x160_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S1000000x32 : Shape := ⟨2, ![1000000, 32]⟩
abbrev S1000000x4 : Shape := ⟨2, ![1000000, 4]⟩
abbrev S64x160 : Shape := ⟨2, ![64, 160]⟩
abbrev S64 : Shape := ⟨1, ![64]⟩
abbrev S_ : Shape := ⟨0, ![]⟩
abbrev S1x32 : Shape := ⟨2, ![1, 32]⟩
abbrev S1000001x32 : Shape := ⟨2, ![1000001, 32]⟩
abbrev S1000000x4x1 : Shape := ⟨3, ![1000000, 4, 1]⟩
abbrev S1000000x4x32 : Shape := ⟨3, ![1000000, 4, 32]⟩
abbrev S1000000x128 : Shape := ⟨2, ![1000000, 128]⟩
abbrev S160x64 : Shape := ⟨2, ![160, 64]⟩
abbrev S32x64 : Shape := ⟨2, ![32, 64]⟩
abbrev S1x64 : Shape := ⟨2, ![1, 64]⟩
abbrev S1000000x64 : Shape := ⟨2, ![1000000, 64]⟩
abbrev S4000x32 : Shape := ⟨2, ![4000, 32]⟩
abbrev S4000x128 : Shape := ⟨2, ![4000, 128]⟩
abbrev S4000x64 : Shape := ⟨2, ![4000, 64]⟩

abbrev nBuf : Space → Nat
  | .hbm => 38
  | .vmem => 12
  | .smem => 0
  | _ => 0

abbrev bufTy : (tb : Table) → Fin (tcTables nBuf tb) → BufTy
  | .hbm, ⟨0, _⟩ => ⟨S1000000x32, .f32⟩
  | .hbm, ⟨1, _⟩ => ⟨S1000000x4, .i32⟩
  | .hbm, ⟨2, _⟩ => ⟨S64x160, .f32⟩
  | .hbm, ⟨3, _⟩ => ⟨S64, .f32⟩
  | .hbm, ⟨4, _⟩ => ⟨S_, .i32⟩
  | .hbm, ⟨5, _⟩ => ⟨S1000000x4, .i32⟩
  | .hbm, ⟨6, _⟩ => ⟨S1000000x4, .i1⟩
  | .hbm, ⟨7, _⟩ => ⟨S_, .i32⟩
  | .hbm, ⟨8, _⟩ => ⟨S_, .i32⟩
  | .hbm, ⟨9, _⟩ => ⟨S1000000x4, .i32⟩
  | .hbm, ⟨10, _⟩ => ⟨S1000000x4, .i32⟩
  | .hbm, ⟨11, _⟩ => ⟨S_, .f32⟩
  | .hbm, ⟨12, _⟩ => ⟨S1x32, .f32⟩
  | .hbm, ⟨13, _⟩ => ⟨S1000001x32, .f32⟩
  | .hbm, ⟨14, _⟩ => ⟨S_, .i32⟩
  | .hbm, ⟨15, _⟩ => ⟨S1000000x4, .i32⟩
  | .hbm, ⟨16, _⟩ => ⟨S1000000x4, .i1⟩
  | .hbm, ⟨17, _⟩ => ⟨S_, .i32⟩
  | .hbm, ⟨18, _⟩ => ⟨S1000000x4, .i32⟩
  | .hbm, ⟨19, _⟩ => ⟨S1000000x4, .i32⟩
  | .hbm, ⟨20, _⟩ => ⟨S1000000x4, .i32⟩
  | .hbm, ⟨21, _⟩ => ⟨S1000000x4x1, .i32⟩
  | .hbm, ⟨22, _⟩ => ⟨S1000000x4x32, .f32⟩
  | .hbm, ⟨23, _⟩ => ⟨S1000000x4x1, .i1⟩
  | .hbm, ⟨24, _⟩ => ⟨S_, .f32⟩
  | .hbm, ⟨25, _⟩ => ⟨S_, .f32⟩
  | .hbm, ⟨26, _⟩ => ⟨S1000000x4x32, .i1⟩
  | .hbm, ⟨27, _⟩ => ⟨S1000000x4x32, .f32⟩
  | .hbm, ⟨28, _⟩ => ⟨S1000000x4x32, .f32⟩
  | .hbm, ⟨29, _⟩ => ⟨S1000000x128, .f32⟩
  | .hbm, ⟨30, _⟩ => ⟨S160x64, .f32⟩
  | .hbm, ⟨31, _⟩ => ⟨S32x64, .f32⟩
  | .hbm, ⟨32, _⟩ => ⟨S32x64, .f32⟩
  | .hbm, ⟨33, _⟩ => ⟨S32x64, .f32⟩
  | .hbm, ⟨34, _⟩ => ⟨S32x64, .f32⟩
  | .hbm, ⟨35, _⟩ => ⟨S32x64, .f32⟩
  | .hbm, ⟨36, _⟩ => ⟨S1x64, .f32⟩
  | .hbm, ⟨37, _⟩ => ⟨S1000000x64, .f32⟩
  | .local _ .vmem, ⟨0, _⟩ => ⟨S4000x32, .f32⟩
  | .local _ .vmem, ⟨1, _⟩ => ⟨S4000x32, .f32⟩
  | .local _ .vmem, ⟨2, _⟩ => ⟨S4000x128, .f32⟩
  | .local _ .vmem, ⟨3, _⟩ => ⟨S4000x128, .f32⟩
  | .local _ .vmem, ⟨4, _⟩ => ⟨S32x64, .f32⟩
  | .local _ .vmem, ⟨5, _⟩ => ⟨S32x64, .f32⟩
  | .local _ .vmem, ⟨6, _⟩ => ⟨S32x64, .f32⟩
  | .local _ .vmem, ⟨7, _⟩ => ⟨S32x64, .f32⟩
  | .local _ .vmem, ⟨8, _⟩ => ⟨S32x64, .f32⟩
  | .local _ .vmem, ⟨9, _⟩ => ⟨S1x64, .f32⟩
  | .local _ .vmem, ⟨10, _⟩ => ⟨S4000x64, .f32⟩
  | .local _ .vmem, ⟨11, _⟩ => ⟨S4000x64, .f32⟩
  | _, _ => ⟨S1000000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_c_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4000x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S1000000x4 : S_.BroadcastsInDim S1000000x4 (![] : Fin 0 → Fin S1000000x4.rank)
  bcast_S_S1x32 : S_.BroadcastsInDim S1x32 (![] : Fin 0 → Fin S1x32.rank)
  concatenates_S1000000x32_S1x32_S1000001x32_d0 : Shape.Concatenates [S1000000x32, S1x32] S1000001x32 0
  bcast_S1000000x4_S1000000x4x1_0_1 : S1000000x4.BroadcastsInDim S1000000x4x1 (![0, 1] : Fin 2 → Fin S1000000x4x1.rank)
  bcast_S1000000x4x1_S1000000x4x32_0_1_2 : S1000000x4x1.BroadcastsInDim S1000000x4x32 (![0, 1, 2] : Fin 3 → Fin S1000000x4x32.rank)
  bcast_S_S1000000x4x32 : S_.BroadcastsInDim S1000000x4x32 (![] : Fin 0 → Fin S1000000x4x32.rank)
  shapeCasts_S1000000x4x32_S1000000x128 : S1000000x4x32.ShapeCasts S1000000x128
  transposes_S64x160_S160x64_1_0 : S64x160.Transposes [1, 0] S160x64
  slices_S160x64_S32x64_0_0 : S160x64.Slices ![0, 0] S32x64
  slices_S160x64_S32x64_32_0 : S160x64.Slices ![32, 0] S32x64
  slices_S160x64_S32x64_64_0 : S160x64.Slices ![64, 0] S32x64
  slices_S160x64_S32x64_96_0 : S160x64.Slices ![96, 0] S32x64
  slices_S160x64_S32x64_128_0 : S160x64.Slices ![128, 0] S32x64
  shapeCasts_S64_S1x64 : S64.ShapeCasts S1x64
  inb_S4000x32_S4000x32_0_0 : ∀ a, (![0, 0] : Fin 2 → Nat) a + S4000x32.size a ≤ S4000x32.size a
  h_S4000x32 : 0 < S4000x32.numel
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  slices_S4000x128_o0_0_S4000x32 : S4000x128.Slices ![0, 0] S4000x32
  slices_S4000x128_o0_32_S4000x32 : S4000x128.Slices ![0, 32] S4000x32
  slices_S4000x128_o0_64_S4000x32 : S4000x128.Slices ![0, 64] S4000x32
  slices_S4000x128_o0_96_S4000x32 : S4000x128.Slices ![0, 96] S4000x32
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  gather_S1000001x32_S1000000x4x1_S1000000x4x32_2_0_n_n_0_2_132_wf : GatherDims.WF S1000001x32 S1000000x4x1 S1000000x4x32 [2] [0] [] [0] [] 2 ![1, 32]
  dot_S4000x32_S32x64_S4000x64_1_0_0_1_n_n_wf : DotDims.WF S4000x32 S32x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x32.size a ≤ S1000000x32.size a
  hwx0_0 : ∀ i : grid0.Coords, EltTy.bits .f32 = 32 ∨ (Rect.block (s := S1000000x32) S4000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S1000000x128.size a
  hwx0_1 : ∀ i : grid0.Coords, EltTy.bits .f32 = 32 ∨ (Rect.block (s := S1000000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x64.size a ≤ S32x64.size a
  hwx0_2 : ∀ i : grid0.Coords, EltTy.bits .f32 = 32 ∨ (Rect.block (s := S32x64) S32x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x64.size a ≤ S32x64.size a
  hwx0_3 : ∀ i : grid0.Coords, EltTy.bits .f32 = 32 ∨ (Rect.block (s := S32x64) S32x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x64.size a ≤ S32x64.size a
  hwx0_4 : ∀ i : grid0.Coords, EltTy.bits .f32 = 32 ∨ (Rect.block (s := S32x64) S32x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x64.size a ≤ S32x64.size a
  hwx0_5 : ∀ i : grid0.Coords, EltTy.bits .f32 = 32 ∨ (Rect.block (s := S32x64) S32x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x64.size a ≤ S32x64.size a
  hwx0_6 : ∀ i : grid0.Coords, EltTy.bits .f32 = 32 ∨ (Rect.block (s := S32x64) S32x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4000x64.size a ≤ S1000000x64.size a
  hwx0_8 : ∀ i : grid0.Coords, EltTy.bits .f32 = 32 ∨ (Rect.block (s := S1000000x64) S4000x64.size (cc0_transform_8 i) (hinb0_8 i)).WholeWords (EltTy.packing .f32)

variable [Facts₀]

def gather_S1000001x32_S1000000x4x1_S1000000x4x32_2_0_n_n_0_2_132 : GatherDims S1000001x32 S1000000x4x1 S1000000x4x32 where
  offsetDims := [2]
  collapsedSliceDims := [0]
  operandBatchingDims := []
  startIndicesBatchingDims := []
  startIndexMap := [0]
  indexVectorDim := 2
  sliceSizes := ![1, 32]
  wf := gather_S1000001x32_S1000000x4x1_S1000000x4x32_2_0_n_n_0_2_132_wf
def dot_S4000x32_S32x64_S4000x64_1_0_0_1_n_n : DotDims S4000x32 S32x64 S4000x64 where
  lhsContracting := [1]
  rhsContracting := [0]
  lhsNonContracting := [0]
  rhsNonContracting := [1]
  lhsBatch := []
  rhsBatch := []
  wf := dot_S4000x32_S32x64_S4000x64_1_0_0_1_n_n_wf

abbrev win0_0 : Pipeline.Window sig grid0 :=
  Pipeline.Window.ofSpec (Memref.whole main_arg0) S4000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S32x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S32x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S32x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S32x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S32x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v21) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v22) S4000x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S1000000x32 : Shape := ⟨2, ![1000000, 32]⟩
abbrev S1000000x4 : Shape := ⟨2, ![1000000, 4]⟩
abbrev S64x160 : Shape := ⟨2, ![64, 160]⟩
abbrev S64 : Shape := ⟨1, ![64]⟩
abbrev S_ : Shape := ⟨0, ![]⟩
abbrev S1x32 : Shape := ⟨2, ![1, 32]⟩
abbrev S1000001x32 : Shape := ⟨2, ![1000001, 32]⟩
abbrev S1000000x4x1 : Shape := ⟨3, ![1000000, 4, 1]⟩
abbrev S1000000x4x32 : Shape := ⟨3, ![1000000, 4, 32]⟩
abbrev S1000000x1x32 : Shape := ⟨3, ![1000000, 1, 32]⟩
abbrev S1000000x64 : Shape := ⟨2, ![1000000, 64]⟩
abbrev S1000000x160 : Shape := ⟨2, ![1000000, 160]⟩
abbrev S160x64 : Shape := ⟨2, ![160, 64]⟩
abbrev S1x64 : Shape := ⟨2, ![1, 64]⟩

abbrev nBuf : Space → Nat
  | .hbm => 54
  | .vmem => 0
  | .smem => 0
  | _ => 0

abbrev bufTy : (tb : Table) → Fin (tcTables nBuf tb) → BufTy
  | .hbm, ⟨0, _⟩ => ⟨S1000000x32, .f32⟩
  | .hbm, ⟨1, _⟩ => ⟨S1000000x4, .i32⟩
  | .hbm, ⟨2, _⟩ => ⟨S64x160, .f32⟩
  | .hbm, ⟨3, _⟩ => ⟨S64, .f32⟩
  | .hbm, ⟨4, _⟩ => ⟨S_, .f32⟩
  | .hbm, ⟨5, _⟩ => ⟨S1x32, .f32⟩
  | .hbm, ⟨6, _⟩ => ⟨S1000001x32, .f32⟩
  | .hbm, ⟨7, _⟩ => ⟨S_, .i32⟩
  | .hbm, ⟨8, _⟩ => ⟨S_, .i32⟩
  | .hbm, ⟨9, _⟩ => ⟨S1000000x4, .i32⟩
  | .hbm, ⟨10, _⟩ => ⟨S1000000x4, .i32⟩
  | .hbm, ⟨11, _⟩ => ⟨S_, .i32⟩
  | .hbm, ⟨12, _⟩ => ⟨S1000000x4, .i32⟩
  | .hbm, ⟨13, _⟩ => ⟨S1000000x4, .i1⟩
  | .hbm, ⟨14, _⟩ => ⟨S_, .i32⟩
  | .hbm, ⟨15, _⟩ => ⟨S1000000x4, .i32⟩
  | .hbm, ⟨16, _⟩ => ⟨S1000000x4, .i32⟩
  | .hbm, ⟨17, _⟩ => ⟨S1000000x4, .i32⟩
  | .hbm, ⟨18, _⟩ => ⟨S1000000x4x1, .i32⟩
  | .hbm, ⟨19, _⟩ => ⟨S1000000x4x32, .f32⟩
  | .hbm, ⟨20, _⟩ => ⟨S_, .i32⟩
  | .hbm, ⟨21, _⟩ => ⟨S1000000x4, .i32⟩
  | .hbm, ⟨22, _⟩ => ⟨S1000000x4, .i1⟩
  | .hbm, ⟨23, _⟩ => ⟨S1000000x4x1, .i1⟩
  | .hbm, ⟨24, _⟩ => ⟨S_, .f32⟩
  | .hbm, ⟨25, _⟩ => ⟨S_, .f32⟩
  | .hbm, ⟨26, _⟩ => ⟨S1000000x4x32, .i1⟩
  | .hbm, ⟨27, _⟩ => ⟨S1000000x4x32, .f32⟩
  | .hbm, ⟨28, _⟩ => ⟨S1000000x4x32, .f32⟩
  | .hbm, ⟨29, _⟩ => ⟨S1000000x1x32, .f32⟩
  | .hbm, ⟨30, _⟩ => ⟨S1000000x32, .f32⟩
  | .hbm, ⟨31, _⟩ => ⟨S1000000x1x32, .f32⟩
  | .hbm, ⟨32, _⟩ => ⟨S1000000x32, .f32⟩
  | .hbm, ⟨33, _⟩ => ⟨S1000000x1x32, .f32⟩
  | .hbm, ⟨34, _⟩ => ⟨S1000000x32, .f32⟩
  | .hbm, ⟨35, _⟩ => ⟨S1000000x1x32, .f32⟩
  | .hbm, ⟨36, _⟩ => ⟨S1000000x32, .f32⟩
  | .hbm, ⟨37, _⟩ => ⟨S1000000x32, .f32⟩
  | .hbm, ⟨38, _⟩ => ⟨S1000000x32, .f32⟩
  | .hbm, ⟨39, _⟩ => ⟨S1000000x32, .f32⟩
  | .hbm, ⟨40, _⟩ => ⟨S1000000x64, .f32⟩
  | .hbm, ⟨41, _⟩ => ⟨S1000000x32, .f32⟩
  | .hbm, ⟨42, _⟩ => ⟨S1000000x32, .f32⟩
  | .hbm, ⟨43, _⟩ => ⟨S1000000x32, .f32⟩
  | .hbm, ⟨44, _⟩ => ⟨S1000000x64, .f32⟩
  | .hbm, ⟨45, _⟩ => ⟨S1000000x64, .f32⟩
  | .hbm, ⟨46, _⟩ => ⟨S1000000x64, .f32⟩
  | .hbm, ⟨47, _⟩ => ⟨S1000000x64, .f32⟩
  | .hbm, ⟨48, _⟩ => ⟨S1000000x160, .f32⟩
  | .hbm, ⟨49, _⟩ => ⟨S160x64, .f32⟩
  | .hbm, ⟨50, _⟩ => ⟨S1000000x64, .f32⟩
  | .hbm, ⟨51, _⟩ => ⟨S1x64, .f32⟩
  | .hbm, ⟨52, _⟩ => ⟨S1000000x64, .f32⟩
  | .hbm, ⟨53, _⟩ => ⟨S1000000x64, .f32⟩
  | _, _ => ⟨S1000000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]

class Facts₀ : Prop where
  bcast_S_S1x32 : S_.BroadcastsInDim S1x32 (![] : Fin 0 → Fin S1x32.rank)
  concatenates_S1000000x32_S1x32_S1000001x32_d0 : Shape.Concatenates [S1000000x32, S1x32] S1000001x32 0
  bcast_S_S1000000x4 : S_.BroadcastsInDim S1000000x4 (![] : Fin 0 → Fin S1000000x4.rank)
  bcast_S1000000x4_S1000000x4x1_0_1 : S1000000x4.BroadcastsInDim S1000000x4x1 (![0, 1] : Fin 2 → Fin S1000000x4x1.rank)
  bcast_S1000000x4x1_S1000000x4x32_0_1_2 : S1000000x4x1.BroadcastsInDim S1000000x4x32 (![0, 1, 2] : Fin 3 → Fin S1000000x4x32.rank)
  bcast_S_S1000000x4x32 : S_.BroadcastsInDim S1000000x4x32 (![] : Fin 0 → Fin S1000000x4x32.rank)
  slices_S1000000x4x32_S1000000x1x32_0_0_0 : S1000000x4x32.Slices ![0, 0, 0] S1000000x1x32
  shapeCasts_S1000000x1x32_S1000000x32 : S1000000x1x32.ShapeCasts S1000000x32
  slices_S1000000x4x32_S1000000x1x32_0_1_0 : S1000000x4x32.Slices ![0, 1, 0] S1000000x1x32
  slices_S1000000x4x32_S1000000x1x32_0_2_0 : S1000000x4x32.Slices ![0, 2, 0] S1000000x1x32
  slices_S1000000x4x32_S1000000x1x32_0_3_0 : S1000000x4x32.Slices ![0, 3, 0] S1000000x1x32
  concatenates_S1000000x32_S1000000x32_S1000000x64_d1 : Shape.Concatenates [S1000000x32, S1000000x32] S1000000x64 1
  concatenates_S1000000x32_S1000000x64_S1000000x64_S1000000x160_d1 : Shape.Concatenates [S1000000x32, S1000000x64, S1000000x64] S1000000x160 1
  transposes_S64x160_S160x64_1_0 : S64x160.Transposes [1, 0] S160x64
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  gather_S1000001x32_S1000000x4x1_S1000000x4x32_2_0_n_n_0_2_132_wf : GatherDims.WF S1000001x32 S1000000x4x1 S1000000x4x32 [2] [0] [] [0] [] 2 ![1, 32]
  dot_S1000000x160_S160x64_S1000000x64_1_0_0_1_n_n_wf : DotDims.WF S1000000x160 S160x64 S1000000x64 [1] [0] [0] [1] [] []

variable [Facts₀]

def gather_S1000001x32_S1000000x4x1_S1000000x4x32_2_0_n_n_0_2_132 : GatherDims S1000001x32 S1000000x4x1 S1000000x4x32 where
  offsetDims := [2]
  collapsedSliceDims := [0]
  operandBatchingDims := []
  startIndicesBatchingDims := []
  startIndexMap := [0]
  indexVectorDim := 2
  sliceSizes := ![1, 32]
  wf := gather_S1000001x32_S1000000x4x1_S1000000x4x32_2_0_n_n_0_2_132_wf
def dot_S1000000x160_S160x64_S1000000x64_1_0_0_1_n_n : DotDims S1000000x160 S160x64 S1000000x64 where
  lhsContracting := [1]
  rhsContracting := [0]
  lhsNonContracting := [0]
  rhsNonContracting := [1]
  lhsBatch := []
  rhsBatch := []
  wf := dot_S1000000x160_S160x64_S1000000x64_1_0_0_1_n_n_wf

class Facts : Prop extends Facts₀ where

variable [Facts]
-- ==== Proof.Spec.lean ====
/-
  The function both programs compute, stated index by index on the extended reals.

  For an edge e and an output channel o the result is a linear form in 160 features of the edge plus a bias:
  the 32 entries of the edge's own row, and four groups of 32 features built, channel by channel, from the four
  gathered neighbour rows a₀ a₁ b₀ b₁ of the edge:
      (a₀ + a₁) + (b₀ + b₁),   |a₀ − a₁| + |b₀ − b₁|,   |(a₀ + a₁) − (b₀ + b₁)|,   ||a₀ − a₁| − |b₀ − b₁||.
  Feature 32·s + k is weighted by W (o, 32·s + k).  The five groups are summed group by group and the partial
  sums are added from the left; a single sum over all 160 features equals that, because addition of extended
  reals is commutative and associative (no finiteness is needed: nothing is distributed or cancelled).
-/
import Idealize.ShloMosaic.PureOps.Ideal
import Idealize.ShloMosaic.Lib.ValueIdx

noncomputable section

open scoped BigOperators

namespace Cert.Spec

open Idealize.ShloMosaic Idealize.ShloMosaic.ValueIdx

/-- The absolute value of an extended real, as the larger of x and −x. -/
def av (x : EReal) : EReal := max x (-x)

/-- The sum of the two pair sums. -/
def fSum (a0 a1 b0 b1 : EReal) : EReal := (a0 + a1) + (b0 + b1)
/-- The sum of the two pair distances. -/
def fAbs (a0 a1 b0 b1 : EReal) : EReal := av (a0 - a1) + av (b0 - b1)
/-- The distance of the two pair sums. -/
def fSumDiff (a0 a1 b0 b1 : EReal) : EReal := av ((a0 + a1) - (b0 + b1))
/-- The distance of the two pair distances. -/
def fAbsDiff (a0 a1 b0 b1 : EReal) : EReal := av (av (a0 - a1) - av (b0 - b1))

/-- Column o + k of the 160 weight columns, for a group that starts at column o. -/
def wcol (o : Nat) (ho : o ≤ 128) (k : Fin 32) : Fin 160 := ⟨o + k.val, by have := k.isLt; omega⟩

/-- Lane o + k of the 128 lanes that hold the four gathered rows side by side, for the row that starts at lane o. -/
def lane (o : Nat) (ho : o ≤ 96) (k : Fin 32) : Fin 128 := ⟨o + k.val, by have := k.isLt; omega⟩

/-- The result at edge e and output channel o: x the edge rows [1000000, 32], N the gathered neighbour rows
    [1000000, 4, 32], W the weights [64, 160], b the bias [64]. -/
def Gat (x : (⟨2, ![1000000, 32]⟩ : Shape).Idx → EReal) (N : (⟨3, ![1000000, 4, 32]⟩ : Shape).Idx → EReal)
    (W : (⟨2, ![64, 160]⟩ : Shape).Idx → EReal) (b : (⟨1, ![64]⟩ : Shape).Idx → EReal)
    (e : Fin 1000000) (o : Fin 64) : EReal :=
  (((((∑ k : Fin 32, x (ix2 e k) * W (ix2 o (wcol 0 (by omega) k)))
    + ∑ k : Fin 32, fSum (N (ix3 e 0 k)) (N (ix3 e 1 k)) (N (ix3 e 2 k)) (N (ix3 e 3 k)) * W (ix2 o (wcol 32 (by omega) k)))
    + ∑ k : Fin 32, fAbs (N (ix3 e 0 k)) (N (ix3 e 1 k)) (N (ix3 e 2 k)) (N (ix3 e 3 k)) * W (ix2 o (wcol 64 (by omega) k)))
    + ∑ k : Fin 32, fSumDiff (N (ix3 e 0 k)) (N (ix3 e 1 k)) (N (ix3 e 2 k)) (N (ix3 e 3 k)) * W (ix2 o (wcol 96 (by omega) k)))
    + ∑ k : Fin 32, fAbsDiff (N (ix3 e 0 k)) (N (ix3 e 1 k)) (N (ix3 e 2 k)) (N (ix3 e 3 k)) * W (ix2 o (wcol 128 (by omega) k)))
  + b (ix1 o)

/-- The whole result array [1000000, 64]. -/
def G (x : (⟨2, ![1000000, 32]⟩ : Shape).Idx → EReal) (N : (⟨3, ![1000000, 4, 32]⟩ : Shape).Idx → EReal)
    (W : (⟨2, ![64, 160]⟩ : Shape).Idx → EReal) (b : (⟨1, ![64]⟩ : Shape).Idx → EReal) :
    (⟨2, ![1000000, 64]⟩ : Shape).Idx → EReal :=
  fun i => Gat x N W b (i 0) (i 1)

theorem G_ix2 (x : (⟨2, ![1000000, 32]⟩ : Shape).Idx → EReal) (N : (⟨3, ![1000000, 4, 32]⟩ : Shape).Idx → EReal)
    (W : (⟨2, ![64, 160]⟩ : Shape).Idx → EReal) (b : (⟨1, ![64]⟩ : Shape).Idx → EReal) (e : Fin 1000000) (o : Fin 64) :
    G x N W b (ix2 e o) = Gat x N W b e o := rfl

/-- A sum over 160 terms is the sum of its five consecutive groups of 32, added from the left. -/
theorem sum_160 {M : Type*} [AddCommMonoid M] (f : Fin 160 → M) :
    ∑ k : Fin 160, f k
      = ((((∑ k : Fin 32, f (wcol 0 (by omega) k)) + ∑ k : Fin 32, f (wcol 32 (by omega) k))
          + ∑ k : Fin 32, f (wcol 64 (by omega) k)) + ∑ k : Fin 32, f (wcol 96 (by omega) k))
        + ∑ k : Fin 32, f (wcol 128 (by omega) k) := by
  have e1 : ∑ k : Fin 160, f k = ∑ k : Fin 128, f ⟨k.val, by have := k.isLt; omega⟩ + ∑ k : Fin 32, f (wcol 128 (by omega) k) :=
    Fin.sum_univ_add (a := 128) (b := 32) f
  have e2 : ∑ k : Fin 128, f ⟨k.val, by have := k.isLt; omega⟩
      = ∑ k : Fin 96, f ⟨k.val, by have := k.isLt; omega⟩ + ∑ k : Fin 32, f (wcol 96 (by omega) k) :=
    Fin.sum_univ_add (a := 96) (b := 32) (fun k : Fin 128 => f ⟨k.val, by have := k.isLt; omega⟩)
  have e3 : ∑ k : Fin 96, f ⟨k.val, by have := k.isLt; omega⟩
      = ∑ k : Fin 64, f ⟨k.val, by have := k.isLt; omega⟩ + ∑ k : Fin 32, f (wcol 64 (by omega) k) :=
    Fin.sum_univ_add (a := 64) (b := 32) (fun k : Fin 96 => f ⟨k.val, by have := k.isLt; omega⟩)
  have e4 : ∑ k : Fin 64, f ⟨k.val, by have := k.isLt; omega⟩
      = ∑ k : Fin 32, f (wcol 0 (by omega) k) + ∑ k : Fin 32, f (wcol 32 (by omega) k) := by
    refine (Fin.sum_univ_add (a := 32) (b := 32) (fun k : Fin 64 => f ⟨k.val, by have := k.isLt; omega⟩)).trans ?_
    refine congrArg₂ (· + ·) (Finset.sum_congr rfl fun k _ => congrArg f (Fin.ext ?_)) rfl
    show k.val = 0 + k.val
    omega
  rw [e1, e2, e3, e4]

end Cert.Spec

end
-- ==== Proof.HostStage.lean ====
/-
  What the kernel's windows find in their arrays when the region is entered.

  Before the launch the host lays the operands out: the four gathered neighbour rows of an edge, [1000000, 4, 32],
  are merged row-major into 128 lanes (lane 32·j + k of edge e is entry (e, j, k)); the weight matrix [64, 160] is
  transposed and cut into five groups of 32 rows (row k of group s, column q, is W (q, 32·s + k)); the bias [64] is
  viewed as one row [1, 64].
-/
import proofs.«142596_j69956427317463_2_alg».proof.Proof.Gen.KernelIdeal.Frame
import proofs.«142596_j69956427317463_2_alg».proof.Proof.Spec
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem Idealize.ShloMosaic.StableHlo Idealize.ShloMosaic.ValueIdx

namespace Cert.HostStage

open Cert.KernelIdeal Cert.KernelIdeal.Gen Cert.Spec

variable (m : (ℓ : Loc nD τ sig) → Buf (Elt Ideal) ℓ)

/-! ## The host operations, stretch by stretch

The region is entered after five stretches of host operations. Each stretch is read over an arbitrary
valuation `W` of the buffers before it, so that no lemma mentions the stretches that came earlier. -/

/-- Running a list of operations that is split in two runs the first part, then the second. -/
theorem after_append (A B : List (HloOp τ sig (Elt Ideal))) (W : Valuation τ sig (Elt Ideal)) :
    after (A ++ B) W = after B (after A W) := by
  induction A generalizing W with
  | nil => rfl
  | cons a A ih => exact ih _

section Stretches

variable (W : Valuation τ sig (Elt Ideal))

/-! ### The last stretch: the packing, the weight groups, the bias row -/

set_option maxHeartbeats 2000000 in
/-- The packed operand is the row-major re-reading of the gathered rows. -/
theorem last_packed :
    (after hostOps0_4 W (Proc.devRef .tc main_v14) : S1000000x128.Idx → EReal)
      = shapeCast S1000000x128 (W (Proc.devRef .tc main_v13) : S1000000x4x32.Idx → EReal) shapeCasts_S1000000x4x32_S1000000x128 := by
  dsimp only [hostOps0_4]
  after_results
  rfl

set_option maxHeartbeats 2000000 in
/-- The last stretch leaves the gathered rows as they were. -/
theorem last_keeps_nbr : after hostOps0_4 W (Proc.devRef .tc main_v13) = W (Proc.devRef .tc main_v13) := by
  dsimp only [hostOps0_4]
  after_results

set_option maxHeartbeats 2000000 in
theorem last_wgroup0 :
    (after hostOps0_4 W (Proc.devRef .tc main_v16) : S32x64.Idx → EReal)
      = extractStridedSlice S32x64 ![0, 0] (transpose S160x64 [1, 0] (W (Proc.devRef .tc main_arg2) : S64x160.Idx → EReal) transposes_S64x160_S160x64_1_0) slices_S160x64_S32x64_0_0 := by
  dsimp only [hostOps0_4]
  after_results

set_option maxHeartbeats 2000000 in
theorem last_wgroup1 :
    (after hostOps0_4 W (Proc.devRef .tc main_v17) : S32x64.Idx → EReal)
      = extractStridedSlice S32x64 ![32, 0] (transpose S160x64 [1, 0] (W (Proc.devRef .tc main_arg2) : S64x160.Idx → EReal) transposes_S64x160_S160x64_1_0) slices_S160x64_S32x64_32_0 := by
  dsimp only [hostOps0_4]
  after_results

set_option maxHeartbeats 2000000 in
theorem last_wgroup2 :
    (after hostOps0_4 W (Proc.devRef .tc main_v18) : S32x64.Idx → EReal)
      = extractStridedSlice S32x64 ![64, 0] (transpose S160x64 [1, 0] (W (Proc.devRef .tc main_arg2) : S64x160.Idx → EReal) transposes_S64x160_S160x64_1_0) slices_S160x64_S32x64_64_0 := by
  dsimp only [hostOps0_4]
  after_results

set_option maxHeartbeats 2000000 in
theorem last_wgroup3 :
    (after hostOps0_4 W (Proc.devRef .tc main_v19) : S32x64.Idx → EReal)
      = extractStridedSlice S32x64 ![96, 0] (transpose S160x64 [1, 0] (W (Proc.devRef .tc main_arg2) : S64x160.Idx → EReal) transposes_S64x160_S160x64_1_0) slices_S160x64_S32x64_96_0 := by
  dsimp only [hostOps0_4]
  after_results

set_option maxHeartbeats 2000000 in
theorem last_wgroup4 :
    (after hostOps0_4 W (Proc.devRef .tc main_v20) : S32x64.Idx → EReal)
      = extractStridedSlice S32x64 ![128, 0] (transpose S160x64 [1, 0] (W (Proc.devRef .tc main_arg2) : S64x160.Idx → EReal) transposes_S64x160_S160x64_1_0) slices_S160x64_S32x64_128_0 := by
  dsimp only [hostOps0_4]
  after_results

set_option maxHeartbeats 2000000 in
theorem last_biasrow :
    (after hostOps0_4 W (Proc.devRef .tc main_v21) : S1x64.Idx → EReal)
      = shapeCast S1x64 (W (Proc.devRef .tc main_arg3) : S64.Idx → EReal) shapeCasts_S64_S1x64 := by
  dsimp only [hostOps0_4]
  after_results
  rfl

set_option maxHeartbeats 2000000 in
theorem last_keeps_w : after hostOps0_4 W (Proc.devRef .tc main_arg2) = W (Proc.devRef .tc main_arg2) := by
  dsimp only [hostOps0_4]
  after_results

set_option maxHeartbeats 2000000 in
theorem last_keeps_b : after hostOps0_4 W (Proc.devRef .tc main_arg3) = W (Proc.devRef .tc main_arg3) := by
  dsimp only [hostOps0_4]
  after_results

end Stretches

/-- The buffers before the last stretch. -/
def beforeLast (c : Dev nD) : Valuation τ sig (Elt Ideal) :=
  after hostOps0_3 (after hostOps0_2 (after hostOps0_1 (after hostOps0 (fun b => m (c, b)))))

/-- The region finds the buffers as the last stretch leaves them. -/
theorem V_eq (c : Dev nD) (b : Ref sig .tc) : V m c b = after hostOps0_4 (beforeLast m c) (Proc.devRef .tc b) := by
  dsimp only [V, beforeLast]
  simp only [List.flatten_cons, List.flatten_nil, List.append_nil, after_append]

/-- The gathered neighbour rows as the region finds them. -/
def nbr (c : Dev nD) : S1000000x4x32.Idx → EReal := V m c main_v13

theorem nbr_eq (c : Dev nD) : nbr m c = beforeLast m c (Proc.devRef .tc main_v13) := by
  unfold nbr
  rw [V_eq, last_keeps_nbr]

/-- The weights and the bias are the arguments, untouched by the last stretch. -/
theorem beforeLast_w (c : Dev nD) : beforeLast m c (Proc.devRef .tc main_arg2) = m ((c : Thread nD τ).loc main_arg2) := by
  exact ((last_keeps_w (beforeLast m c)).symm.trans (V_eq m c main_arg2).symm).trans (V_main_arg2 m c)

theorem beforeLast_b (c : Dev nD) : beforeLast m c (Proc.devRef .tc main_arg3) = m ((c : Thread nD τ).loc main_arg3) := by
  exact ((last_keeps_b (beforeLast m c)).symm.trans (V_eq m c main_arg3).symm).trans (V_main_arg3 m c)

/-! ## The operands at an index -/

/-- Lane 32·j + k of edge e in the packed operand is entry (e, j, k) of the gathered rows: both sit at row-major
    position (4·e + j)·32 + k = 128·e + 32·j + k. -/
theorem packed_apply (c : Dev nD) (e : Fin 1000000) (l : Fin 128) (j : Fin 4) (k : Fin 32) (h : l.val = 32 * j.val + k.val) :
    (V m c main_v14 : S1000000x128.Idx → EReal) (ix2 e l) = nbr m c (ix3 e j k) := by
  rw [nbr_eq, V_eq, last_packed]
  refine shapeCast_apply _ shapeCasts_S1000000x4x32_S1000000x128 (ix2 e l) (ix3 e j k) ?_
  rewrite [Shape.rowMajor_val_three, Shape.rowMajor_val_two]
  show (e.val * 4 + j.val) * 32 + k.val = e.val * 128 + l.val
  omega

/-- Row k, column q of the group cut at row o of the transposed weights is W (q, o + k). -/
theorem wgroup_read (Wt : S64x160.Idx → EReal) (o : Nat) (ho : o ≤ 128) (hs : S160x64.Slices ![o, 0] S32x64) (k : Fin 32) (q : Fin 64) :
    extractStridedSlice S32x64 ![o, 0] (transpose S160x64 [1, 0] Wt transposes_S64x160_S160x64_1_0) hs (ix2 k q)
      = Wt (ix2 q (wcol o ho k)) := by
  refine (extractStridedSlice_apply ![o, 0] _ hs (ix2 k q) (ix2 (wcol o ho k) q) (fun a => ?_)).trans ?_
  · match a with
    | ⟨0, _⟩ => rfl
    | ⟨1, _⟩ => exact (Nat.zero_add _).symm
  · exact transpose_apply [1, 0] Wt transposes_S64x160_S160x64_1_0 (ix2 (wcol o ho k) q) (ix2 q (wcol o ho k)) (fun b => match b with
      | ⟨0, _⟩ => rfl
      | ⟨1, _⟩ => rfl)

theorem wgroup0_apply (c : Dev nD) (k : Fin 32) (q : Fin 64) :
    (V m c main_v16 : S32x64.Idx → EReal) (ix2 k q) = (m ((c : Thread nD τ).loc main_arg2) : S64x160.Idx → EReal) (ix2 q (wcol 0 (by omega) k)) := by
  rw [V_eq, last_wgroup0, beforeLast_w]
  exact wgroup_read _ 0 (by omega) slices_S160x64_S32x64_0_0 k q
theorem wgroup1_apply (c : Dev nD) (k : Fin 32) (q : Fin 64) :
    (V m c main_v17 : S32x64.Idx → EReal) (ix2 k q) = (m ((c : Thread nD τ).loc main_arg2) : S64x160.Idx → EReal) (ix2 q (wcol 32 (by omega) k)) := by
  rw [V_eq, last_wgroup1, beforeLast_w]
  exact wgroup_read _ 32 (by omega) slices_S160x64_S32x64_32_0 k q
theorem wgroup2_apply (c : Dev nD) (k : Fin 32) (q : Fin 64) :
    (V m c main_v18 : S32x64.Idx → EReal) (ix2 k q) = (m ((c : Thread nD τ).loc main_arg2) : S64x160.Idx → EReal) (ix2 q (wcol 64 (by omega) k)) := by
  rw [V_eq, last_wgroup2, beforeLast_w]
  exact wgroup_read _ 64 (by omega) slices_S160x64_S32x64_64_0 k q
theorem wgroup3_apply (c : Dev nD) (k : Fin 32) (q : Fin 64) :
    (V m c main_v19 : S32x64.Idx → EReal) (ix2 k q) = (m ((c : Thread nD τ).loc main_arg2) : S64x160.Idx → EReal) (ix2 q (wcol 96 (by omega) k)) := by
  rw [V_eq, last_wgroup3, beforeLast_w]
  exact wgroup_read _ 96 (by omega) slices_S160x64_S32x64_96_0 k q
theorem wgroup4_apply (c : Dev nD) (k : Fin 32) (q : Fin 64) :
    (V m c main_v20 : S32x64.Idx → EReal) (ix2 k q) = (m ((c : Thread nD τ).loc main_arg2) : S64x160.Idx → EReal) (ix2 q (wcol 128 (by omega) k)) := by
  rw [V_eq, last_wgroup4, beforeLast_w]
  exact wgroup_read _ 128 (by omega) slices_S160x64_S32x64_128_0 k q

/-- The bias row at column q is b (q): position q in both readings. -/
theorem biasrow_apply (c : Dev nD) (q : Fin 64) :
    (V m c main_v21 : S1x64.Idx → EReal) (ix2 0 q) = (m ((c : Thread nD τ).loc main_arg3) : S64.Idx → EReal) (ix1 q) := by
  rw [V_eq, last_biasrow, beforeLast_b]
  refine shapeCast_apply _ shapeCasts_S64_S1x64 (ix2 0 q) (ix1 q) ?_
  rewrite [Shape.rowMajor_val_one, Shape.rowMajor_val_two]
  show q.val = 0 * 64 + q.val
  omega

end Cert.HostStage

end
-- ==== Proof.LibPlainDot.lean ====
/-
  A matrix product with the plain dimension numbers, read at one entry of its result on the extended reals.

  The left operand is [M, K], contracted on its second axis against the first axis of the right operand [K, N];
  there is no batch axis. Entry (p, q) of the product is the sum over k of lhs (p, k) · rhs (k, q). This holds for
  the vector unit's product into a zero accumulator (the zero word denotes 0, and 0 + s = s) and for the host's
  `dot_general`, for all extents M, K, N. A record of dimension numbers is determined by its six lists of axes
  (its remaining field is a proof), so the statements are about `DotDims.plain M K N` and apply to every record
  that lists the same axes.
-/
import Idealize.ShloMosaic.PureOps.Ideal.Laws
import Idealize.ShloMosaic.Lib.ValueIdx

noncomputable section

open scoped BigOperators

namespace Cert.LibPlainDot

open Idealize.ShloMosaic Idealize.ShloMosaic.ValueIdx

variable {M K N : Nat}

/-- The contraction index of the plain product is its one coordinate, k < K. -/
abbrev kEquiv (M K N : Nat) : (DotDims.plain M K N).contr.Idx ≃ Fin K :=
  contrEquiv1 (DotDims.plain M K N) K rfl rfl

/-- The left operand's row axis is the result's first axis: it reads the result entry's row. -/
theorem lhs_row (j : (⟨2, ![M, N]⟩ : Shape).Idx) (κ : (DotDims.plain M K N).contr.Idx) :
    ((DotDims.plain M K N).lhsIdx j κ 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column axis is the contracted one: it reads the contraction coordinate. -/
theorem lhs_col (j : (⟨2, ![M, N]⟩ : Shape).Idx) (k : Fin K) :
    ((DotDims.plain M K N).lhsIdx j ((kEquiv M K N).symm k) 1).val = k.val :=
  ((DotDims.plain M K N).lhsIdx_val_of_single rfl j _).trans (contrEquiv1_symm_val (DotDims.plain M K N) K rfl rfl k)

/-- The right operand's row axis is the contracted one. -/
theorem rhs_row (j : (⟨2, ![M, N]⟩ : Shape).Idx) (k : Fin K) :
    ((DotDims.plain M K N).rhsIdx j ((kEquiv M K N).symm k) 0).val = k.val :=
  ((DotDims.plain M K N).rhsIdx_val_of_single rfl j _).trans (contrEquiv1_symm_val (DotDims.plain M K N) K rfl rfl k)

/-- The right operand's column axis is the result's second axis: it reads the result entry's column. -/
theorem rhs_col (j : (⟨2, ![M, N]⟩ : Shape).Idx) (κ : (DotDims.plain M K N).contr.Idx) :
    ((DotDims.plain M K N).rhsIdx j κ 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- At result entry (p, q) and contraction coordinate k the left operand is read at (p, k) -/
theorem lhsIdx_plain (p : Fin M) (q : Fin N) (k : Fin K) :
    (DotDims.plain M K N).lhsIdx (ix2 p q) ((kEquiv M K N).symm k) = ix2 p k :=
  funext fun a => Fin.ext (by
    match a with
    | ⟨0, _⟩ => exact lhs_row (ix2 p q) _
    | ⟨1, _⟩ => exact lhs_col (ix2 p q) k)

/-- and the right operand at (k, q). -/
theorem rhsIdx_plain (p : Fin M) (q : Fin N) (k : Fin K) :
    (DotDims.plain M K N).rhsIdx (ix2 p q) ((kEquiv M K N).symm k) = ix2 k q :=
  funext fun a => Fin.ext (by
    match a with
    | ⟨0, _⟩ => exact rhs_row (ix2 p q) k
    | ⟨1, _⟩ => exact rhs_col (ix2 p q) _)

/-- The sum over the contraction index of the two operands' entries is the sum over k < K of lhs (p, k) · rhs (k, q). -/
theorem sum_contr {φ₁ φ₂ : FTy} (lhs : FVec Ideal ⟨2, ![M, K]⟩ φ₁) (rhs : FVec Ideal ⟨2, ![K, N]⟩ φ₂)
    (p : Fin M) (q : Fin N) :
    (∑ κ : (DotDims.plain M K N).contr.Idx,
        lhs ((DotDims.plain M K N).lhsIdx (ix2 p q) κ) * rhs ((DotDims.plain M K N).rhsIdx (ix2 p q) κ) : EReal)
      = ∑ k : Fin K, lhs (ix2 p k) * rhs (ix2 k q) := by
  rw [← Equiv.sum_comp (kEquiv M K N).symm]
  exact Finset.sum_congr rfl fun k _ =>
    congrArg₂ (fun a b => (lhs a * rhs b : EReal)) (lhsIdx_plain p q k) (rhsIdx_plain p q k)

/-- The vector unit's product into the zero accumulator, at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general`, at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.LibPlainDot

end
-- ==== Proof.Body.lean ====
/-
  The value the kernel body stores, read at one entry of its block.

  A block is 4000 edges by 64 output channels. Its inputs are the edges' own rows x0 [4000, 32], the four gathered
  neighbour rows of every edge laid side by side in one row of 128 lanes, x1 [4000, 128] (a₀ in lanes 0–31, a₁ in
  32–63, b₀ in 64–95, b₁ in 96–127), five weight blocks x2 … x6 [32, 64] and the bias row x7 [1, 64]. The body cuts
  the four rows out of x1, forms lane by lane the four features
      (a₀ + a₁) + (b₀ + b₁),   |a₀ − a₁| + |b₀ − b₁|,   |(a₀ + a₁) − (b₀ + b₁)|,   ||a₀ − a₁| − |b₀ − b₁||,
  multiplies the edge rows and each feature block [4000, 32] with its weight block [32, 64], adds the five products
  from the left and adds the bias row to every row. On the extended reals a change of number format is the identity
  and a product into the zero accumulator is the plain sum over the 32 contracted lanes, so entry (p, q) of the
  stored block is
      ∑ₖ x0(p,k)·x2(k,q) + ∑ₖ f₁(p,k)·x3(k,q) + ∑ₖ f₂(p,k)·x4(k,q) + ∑ₖ f₃(p,k)·x5(k,q) + ∑ₖ f₄(p,k)·x6(k,q) + x7(0,q)
  with fᵢ(p,k) the i-th feature of the four numbers x1(p,k), x1(p,32+k), x1(p,64+k), x1(p,96+k).
-/
import proofs.«142596_j69956427317463_2_alg».proof.Proof.Gen.KernelIdeal.Skeleton
import proofs.«142596_j69956427317463_2_alg».proof.Proof.Spec
import proofs.«142596_j69956427317463_2_alg».proof.Proof.LibPlainDot
import Idealize.ShloMosaic.Lib.ValueLayout

noncomputable section

open scoped BigOperators

namespace Cert.Body

open Idealize.ShloMosaic Idealize.ShloMosaic.ValueIdx
open Cert.KernelIdeal Cert.KernelIdeal.Gen
open Cert.Spec (lane av fSum fAbs fSumDiff fAbsDiff)

/-! ## The four rows cut out of the 128 lanes -/

/-- The cast of the 128-lane block to its own shape changes nothing. -/
theorem lanes_cast (x1 : Vec Ideal S4000x128 .f32) : k0_pay2 (F := Ideal) x1 = x1 :=
  shapeCast_self x1 _

/-- The first cut is a₀: lane k of it is lane k of the block. -/
theorem cut_a0 (x1 : Vec Ideal S4000x128 .f32) (p : Fin 4000) (k : Fin 32) :
    k0_pay3 (F := Ideal) x1 (ix2 p k) = x1 (ix2 p (lane 0 (by omega) k)) := by
  unfold k0_pay3
  rw [lanes_cast]
  exact slice2_axis1_apply 0 x1 _ p k _ rfl

/-- The second cut is a₁: lane k of it is lane 32 + k of the block. -/
theorem cut_a1 (x1 : Vec Ideal S4000x128 .f32) (p : Fin 4000) (k : Fin 32) :
    k0_pay4 (F := Ideal) x1 (ix2 p k) = x1 (ix2 p (lane 32 (by omega) k)) := by
  unfold k0_pay4
  rw [lanes_cast]
  exact slice2_axis1_apply 32 x1 _ p k _ rfl

/-- The third cut is b₀: lane k of it is lane 64 + k of the block. -/
theorem cut_b0 (x1 : Vec Ideal S4000x128 .f32) (p : Fin 4000) (k : Fin 32) :
    k0_pay5 (F := Ideal) x1 (ix2 p k) = x1 (ix2 p (lane 64 (by omega) k)) := by
  unfold k0_pay5
  rw [lanes_cast]
  exact slice2_axis1_apply 64 x1 _ p k _ rfl

/-- The fourth cut is b₁: lane k of it is lane 96 + k of the block. -/
theorem cut_b1 (x1 : Vec Ideal S4000x128 .f32) (p : Fin 4000) (k : Fin 32) :
    k0_pay6 (F := Ideal) x1 (ix2 p k) = x1 (ix2 p (lane 96 (by omega) k)) := by
  unfold k0_pay6
  rw [lanes_cast]
  exact slice2_axis1_apply 96 x1 _ p k _ rfl

/-! ## The two distances

The absolute value of an extended real x is the larger of x and −x, on both sides by definition. -/

/-- |a₀ − a₁| at lane k. -/
theorem dist_a (x1 : Vec Ideal S4000x128 .f32) (p : Fin 4000) (k : Fin 32) :
    k0_pay7 (F := Ideal) x1 (ix2 p k)
      = av (x1 (ix2 p (lane 0 (by omega) k)) - x1 (ix2 p (lane 32 (by omega) k))) :=
  congrArg₂ (fun a b : EReal => av (a - b)) (cut_a0 x1 p k) (cut_a1 x1 p k)

/-- |b₀ − b₁| at lane k. -/
theorem dist_b (x1 : Vec Ideal S4000x128 .f32) (p : Fin 4000) (k : Fin 32) :
    k0_pay8 (F := Ideal) x1 (ix2 p k)
      = av (x1 (ix2 p (lane 64 (by omega) k)) - x1 (ix2 p (lane 96 (by omega) k))) :=
  congrArg₂ (fun a b : EReal => av (a - b)) (cut_b0 x1 p k) (cut_b1 x1 p k)

/-! ## One product of the body -/

/-- The dimension numbers the body's five products carry are the plain ones, [4000, 32] by [32, 64]. -/
theorem dims_plain : dot_S4000x32_S32x64_S4000x64_1_0_0_1_n_n = DotDims.plain 4000 32 64 := rfl

/-- A product of a block a [4000, 32] with a weight block w [32, 64] into the zero accumulator, the weights first
    cast to their own shape and both operands narrowed (the identity on the extended reals): entry (p, q) is
    ∑ₖ a(p,k)·w(k,q). -/
theorem product_at (a : FVec Ideal S4000x32 .bf16) (w : Vec Ideal S32x64 .f32) (p : Fin 4000) (q : Fin 64) :
    matmul dot_S4000x32_S32x64_S4000x64_1_0_0_1_n_n none a
        (truncf .bf16 (shapeCast S32x64 w shapeCasts_S32x64_S32x64) bitsLt_bf16_f32)
        (constant (F := Ideal) S4000x64 .f32 0x00000000#32) (ix2 p q)
      = ∑ k : Fin 32, a (ix2 p k) * w (ix2 k q) := by
  rw [shapeCast_self, dims_plain]
  exact Cert.LibPlainDot.matmul_zero_apply none a _ p q

/-! ## The four features, lane by lane -/

/-- (a₀ + a₁) + (b₀ + b₁) at lane k. -/
theorem feat_sum (x1 : Vec Ideal S4000x128 .f32) (p : Fin 4000) (k : Fin 32) :
    addf (addf (k0_pay3 (F := Ideal) x1) (k0_pay4 x1)) (addf (k0_pay5 x1) (k0_pay6 x1)) (ix2 p k)
      = fSum (x1 (ix2 p (lane 0 (by omega) k))) (x1 (ix2 p (lane 32 (by omega) k)))
          (x1 (ix2 p (lane 64 (by omega) k))) (x1 (ix2 p (lane 96 (by omega) k))) :=
  congrArg₂ (fun s t : EReal => s + t)
    (congrArg₂ (fun a b : EReal => a + b) (cut_a0 x1 p k) (cut_a1 x1 p k))
    (congrArg₂ (fun a b : EReal => a + b) (cut_b0 x1 p k) (cut_b1 x1 p k))

/-- |a₀ − a₁| + |b₀ − b₁| at lane k. -/
theorem feat_abs (x1 : Vec Ideal S4000x128 .f32) (p : Fin 4000) (k : Fin 32) :
    addf (k0_pay7 (F := Ideal) x1) (k0_pay8 x1) (ix2 p k)
      = fAbs (x1 (ix2 p (lane 0 (by omega) k))) (x1 (ix2 p (lane 32 (by omega) k)))
          (x1 (ix2 p (lane 64 (by omega) k))) (x1 (ix2 p (lane 96 (by omega) k))) :=
  congrArg₂ (fun s t : EReal => s + t) (dist_a x1 p k) (dist_b x1 p k)

/-- |(a₀ + a₁) − (b₀ + b₁)| at lane k. -/
theorem feat_sumDiff (x1 : Vec Ideal S4000x128 .f32) (p : Fin 4000) (k : Fin 32) :
    absf (subf (addf (k0_pay3 (F := Ideal) x1) (k0_pay4 x1)) (addf (k0_pay5 x1) (k0_pay6 x1))) (ix2 p k)
      = fSumDiff (x1 (ix2 p (lane 0 (by omega) k))) (x1 (ix2 p (lane 32 (by omega) k)))
          (x1 (ix2 p (lane 64 (by omega) k))) (x1 (ix2 p (lane 96 (by omega) k))) :=
  congrArg₂ (fun s t : EReal => av (s - t))
    (congrArg₂ (fun a b : EReal => a + b) (cut_a0 x1 p k) (cut_a1 x1 p k))
    (congrArg₂ (fun a b : EReal => a + b) (cut_b0 x1 p k) (cut_b1 x1 p k))

/-- ||a₀ − a₁| − |b₀ − b₁|| at lane k. -/
theorem feat_absDiff (x1 : Vec Ideal S4000x128 .f32) (p : Fin 4000) (k : Fin 32) :
    absf (subf (k0_pay7 (F := Ideal) x1) (k0_pay8 x1)) (ix2 p k)
      = fAbsDiff (x1 (ix2 p (lane 0 (by omega) k))) (x1 (ix2 p (lane 32 (by omega) k)))
          (x1 (ix2 p (lane 64 (by omega) k))) (x1 (ix2 p (lane 96 (by omega) k))) :=
  congrArg₂ (fun s t : EReal => av (s - t)) (dist_a x1 p k) (dist_b x1 p k)

/-! ## The five terms and the bias -/

/-- The edge rows against the first weight block. -/
theorem term_own (x0 : Vec Ideal S4000x32 .f32) (x2 : Vec Ideal S32x64 .f32) (p : Fin 4000) (q : Fin 64) :
    matmul dot_S4000x32_S32x64_S4000x64_1_0_0_1_n_n none (truncf .bf16 x0 bitsLt_bf16_f32)
        (truncf .bf16 (shapeCast S32x64 x2 shapeCasts_S32x64_S32x64) bitsLt_bf16_f32)
        (constant (F := Ideal) S4000x64 .f32 0x00000000#32) (ix2 p q)
      = ∑ k : Fin 32, x0 (ix2 p k) * x2 (ix2 k q) :=
  product_at _ x2 p q

/-- A feature block against its weight block: if lane k of row p of the block f is the number g k, entry (p, q) of the
    product is ∑ₖ g(k)·w(k,q). -/
theorem term_feature (f : FVec Ideal S4000x32 .f32) (w : Vec Ideal S32x64 .f32) (p : Fin 4000) (q : Fin 64)
    (g : Fin 32 → EReal) (hg : ∀ k : Fin 32, f (ix2 p k) = g k) :
    matmul dot_S4000x32_S32x64_S4000x64_1_0_0_1_n_n none (truncf .bf16 f bitsLt_bf16_f32)
        (truncf .bf16 (shapeCast S32x64 w shapeCasts_S32x64_S32x64) bitsLt_bf16_f32)
        (constant (F := Ideal) S4000x64 .f32 0x00000000#32) (ix2 p q)
      = ∑ k : Fin 32, g k * w (ix2 k q) :=
  (product_at _ w p q).trans (Finset.sum_congr rfl fun k _ => congrArg (fun a : EReal => a * w (ix2 k q)) (hg k))

/-- The bias row, cast to its own shape and repeated down the 4000 rows, reads its entry q at every row. -/
theorem bias_at (x7 : Vec Ideal S1x64 .f32) (p : Fin 4000) (q : Fin 64) :
    broadcastTo S4000x64 (shapeCast S1x64 x7 shapeCasts_S1x64_S1x64) broadcasts_S1x64_S4000x64 (ix2 p q)
      = x7 (ix2 0 q) := by
  rw [shapeCast_self]
  exact broadcastTo_1b_ab_apply x7 _ p q

/-! ## The stored value -/

/-- Entry (p, q) of the block the body stores: the five sums over the 32 lanes, added from the left, plus the bias. -/
theorem stored_at (x0 : Vec Ideal S4000x32 .f32) (x1 : Vec Ideal S4000x128 .f32)
    (x2 x3 x4 x5 x6 : Vec Ideal S32x64 .f32) (x7 : Vec Ideal S1x64 .f32) (p : Fin 4000) (q : Fin 64) :
    k0_pay1 (F := Ideal) (k0_pay9 (F := Ideal) x0 x1 x2 x3 x4 x5) (k0_pay10 (F := Ideal) x1) x6 x7 (ix2 p q)
      = (((((∑ k : Fin 32, x0 (ix2 p k) * x2 (ix2 k q))
          + ∑ k : Fin 32, fSum (x1 (ix2 p (lane 0 (by omega) k))) (x1 (ix2 p (lane 32 (by omega) k)))
              (x1 (ix2 p (lane 64 (by omega) k))) (x1 (ix2 p (lane 96 (by omega) k))) * x3 (ix2 k q))
          + ∑ k : Fin 32, fAbs (x1 (ix2 p (lane 0 (by omega) k))) (x1 (ix2 p (lane 32 (by omega) k)))
              (x1 (ix2 p (lane 64 (by omega) k))) (x1 (ix2 p (lane 96 (by omega) k))) * x4 (ix2 k q))
          + ∑ k : Fin 32, fSumDiff (x1 (ix2 p (lane 0 (by omega) k))) (x1 (ix2 p (lane 32 (by omega) k)))
              (x1 (ix2 p (lane 64 (by omega) k))) (x1 (ix2 p (lane 96 (by omega) k))) * x5 (ix2 k q))
          + ∑ k : Fin 32, fAbsDiff (x1 (ix2 p (lane 0 (by omega) k))) (x1 (ix2 p (lane 32 (by omega) k)))
              (x1 (ix2 p (lane 64 (by omega) k))) (x1 (ix2 p (lane 96 (by omega) k))) * x6 (ix2 k q))
        + x7 (ix2 0 q) :=
  -- By its definition the stored block is ((((P₀ + P₁) + P₂) + P₃) + P₄) + B, with P₀ … P₄ the five products and B the
  -- bias row repeated down the rows, and a sum of blocks is read entry by entry: the equation is the sum, in that
  -- bracketing, of the six equations for the entries of P₀, …, P₄ and B.
  congrArg₂ (fun s t : EReal => s + t)
    (congrArg₂ (fun s t : EReal => s + t)
      (congrArg₂ (fun s t : EReal => s + t)
        (congrArg₂ (fun s t : EReal => s + t)
          (congrArg₂ (fun s t : EReal => s + t)
            (term_own x0 x2 p q)
            (term_feature _ x3 p q _ (feat_sum x1 p)))
          (term_feature _ x4 p q _ (feat_abs x1 p)))
        (term_feature _ x5 p q _ (feat_sumDiff x1 p)))
      (term_feature _ x6 p q _ (feat_absDiff x1 p)))
    (bias_at x7 p q)

end Cert.Body

end
-- ==== Proof.Blocks.lean ====
/-
  From what each grid point writes back to the whole result array.

  The million edges are cut into 250 blocks of 4000 consecutive rows, and grid point t works on block t: it reads rows
  4000·t … 4000·t + 3999 of the edge rows [1000000, 32] and of the packed neighbour rows [1000000, 128], the five weight
  groups [32, 64] and the bias row [1, 64] whole, and writes rows 4000·t … 4000·t + 3999 of the result [1000000, 64].
  Entry (p, q) of what it writes is, by the value of the body at one entry, the five sums over 32 lanes plus the bias;
  read through where the blocks lie and through what the host operations before the launch put into the windows'
  arrays (lane 32·j + k of a packed row is entry k of gathered row j; row k of weight group s is column 32·s + k of
  the weight matrix; the bias row is the bias), that is the specified result at edge 4000·t + p and channel q. Every
  row r lies in the block of point r / 4000 and every point writes its block back, so after the last point the whole
  result array is the specified function of the arguments.
-/
import proofs.«142596_j69956427317463_2_alg».proof.Proof.Gen.KernelIdeal.Value
import proofs.«142596_j69956427317463_2_alg».proof.Proof.HostStage
import proofs.«142596_j69956427317463_2_alg».proof.Proof.Body
import Idealize.ShloMosaic.Lib.Pipeline.Value

noncomputable section

open scoped BigOperators
open Idealize.ShloMosaic Idealize.ShloMosaic.TcCoe Idealize.SL.Sem Idealize.ShloMosaic.ValueIdx
open Idealize.ShloMosaic.Pipeline (Dat)

namespace Cert.Blocks

open Cert.KernelIdeal Cert.KernelIdeal.Gen Cert.KernelIdeal.Value

variable (m : (ℓ : Loc nD τ sig) → Buf (Elt Ideal) ℓ)

/-! ## Where each window's block lies in its array

The grid has 250 points. At point t the window on the edge rows, the window on the packed neighbour rows and the
output window are at block t along the rows and block 0 along the columns; the five weight windows and the bias window
stay at block (0, 0). Decided once over the 250 points. -/

/-- The three moving windows are at block (t, 0). -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_8.index t (0 : Fin 2) = t.val ∧ win0_8.index t (1 : Fin 2) = 0 :=
  (by decide +kernel : ∀ t : Fin grid0.N, _)

/-- The six fixed windows are at block (0, 0). -/
theorem idx_fixed : ∀ t : Fin cfg0.N,
    (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0) :=
  (by decide +kernel : ∀ t : Fin grid0.N, _)

/-- A point's position is below 250. -/
theorem point_lt (t : Fin cfg0.N) : t.val < 250 := by
  have h : cfg0.N = 250 := N_0
  have := t.isLt
  omega

/-- Row p of block t is row 4000·t + p of the million rows. -/
abbrev row (t : Fin cfg0.N) (p : Fin 4000) : Fin 1000000 :=
  ⟨t.val * 4000 + p.val, by have := point_lt t; have := p.isLt; omega⟩

/-! ## The blocks read at an entry

A block's coordinate in the array is (block index) × (block extent) + 1 × (the coordinate inside the block). -/

/-- Entry (p, k) of the edge rows' block at point t is entry (4000·t + p, k) of the edge rows. -/
theorem own_block (c : Dev nD) (t : Fin cfg0.N) (p : Fin 4000) (k : Fin 32) :
    (iblk m c 0 t : Vec Ideal S4000x32 .f32) (ix2 p k)
      = (V m c main_arg0 : S1000000x32.Idx → EReal) (ix2 (row t p) k) := by
  obtain ⟨e0, e1, -⟩ := idx_rows t
  unfold iblk
  rw [View.read_apply]
  show (V m c main_arg0 : S1000000x32.Idx → EReal) (((cfg0.win 0).blk t).view.emb (ix2 p k)) = _
  refine congrArg (V m c main_arg0 : S1000000x32.Idx → EReal) (funext fun a => Fin.ext ?_)
  match a with
  | ⟨0, _⟩ => show win0_0.index t (0 : Fin 2) * 4000 + 1 * p.val = t.val * 4000 + p.val; rw [e0]; omega
  | ⟨1, _⟩ => show win0_0.index t (1 : Fin 2) * 32 + 1 * k.val = k.val; rw [e1]; omega

/-- Entry (p, l) of the packed neighbour rows' block at point t is entry (4000·t + p, l) of the packed rows. -/
theorem packed_block (c : Dev nD) (t : Fin cfg0.N) (p : Fin 4000) (l : Fin 128) :
    (iblk m c 1 t : Vec Ideal S4000x128 .f32) (ix2 p l)
      = (V m c main_v14 : S1000000x128.Idx → EReal) (ix2 (row t p) l) := by
  obtain ⟨-, -, e0, e1, -⟩ := idx_rows t
  unfold iblk
  rw [View.read_apply]
  show (V m c main_v14 : S1000000x128.Idx → EReal) (((cfg0.win 1).blk t).view.emb (ix2 p l)) = _
  refine congrArg (V m c main_v14 : S1000000x128.Idx → EReal) (funext fun a => Fin.ext ?_)
  match a with
  | ⟨0, _⟩ => show win0_1.index t (0 : Fin 2) * 4000 + 1 * p.val = t.val * 4000 + p.val; rw [e0]; omega
  | ⟨1, _⟩ => show win0_1.index t (1 : Fin 2) * 128 + 1 * l.val = l.val; rw [e1]; omega

/-- The first weight window's block is the whole weight group, at every point. -/
theorem wgroup0_block (c : Dev nD) (t : Fin cfg0.N) (k : Fin 32) (q : Fin 64) :
    (iblk m c 2 t : Vec Ideal S32x64 .f32) (ix2 k q) = (V m c main_v16 : S32x64.Idx → EReal) (ix2 k q) := by
  obtain ⟨⟨e0, e1⟩, -⟩ := idx_fixed t
  unfold iblk
  rw [View.read_apply]
  show (V m c main_v16 : S32x64.Idx → EReal) (((cfg0.win 2).blk t).view.emb (ix2 k q)) = _
  refine congrArg (V m c main_v16 : S32x64.Idx → EReal) (funext fun a => Fin.ext ?_)
  match a with
  | ⟨0, _⟩ => show win0_2.index t (0 : Fin 2) * 32 + 1 * k.val = k.val; rw [e0]; omega
  | ⟨1, _⟩ => show win0_2.index t (1 : Fin 2) * 64 + 1 * q.val = q.val; rw [e1]; omega

/-- The second weight window's block is the whole weight group, at every point. -/
theorem wgroup1_block (c : Dev nD) (t : Fin cfg0.N) (k : Fin 32) (q : Fin 64) :
    (iblk m c 3 t : Vec Ideal S32x64 .f32) (ix2 k q) = (V m c main_v17 : S32x64.Idx → EReal) (ix2 k q) := by
  obtain ⟨-, ⟨e0, e1⟩, -⟩ := idx_fixed t
  unfold iblk
  rw [View.read_apply]
  show (V m c main_v17 : S32x64.Idx → EReal) (((cfg0.win 3).blk t).view.emb (ix2 k q)) = _
  refine congrArg (V m c main_v17 : S32x64.Idx → EReal) (funext fun a => Fin.ext ?_)
  match a with
  | ⟨0, _⟩ => show win0_3.index t (0 : Fin 2) * 32 + 1 * k.val = k.val; rw [e0]; omega
  | ⟨1, _⟩ => show win0_3.index t (1 : Fin 2) * 64 + 1 * q.val = q.val; rw [e1]; omega

/-- The third weight window's block is the whole weight group, at every point. -/
theorem wgroup2_block (c : Dev nD) (t : Fin cfg0.N) (k : Fin 32) (q : Fin 64) :
    (iblk m c 4 t : Vec Ideal S32x64 .f32) (ix2 k q) = (V m c main_v18 : S32x64.Idx → EReal) (ix2 k q) := by
  obtain ⟨-, -, ⟨e0, e1⟩, -⟩ := idx_fixed t
  unfold iblk
  rw [View.read_apply]
  show (V m c main_v18 : S32x64.Idx → EReal) (((cfg0.win 4).blk t).view.emb (ix2 k q)) = _
  refine congrArg (V m c main_v18 : S32x64.Idx → EReal) (funext fun a => Fin.ext ?_)
  match a with
  | ⟨0, _⟩ => show win0_4.index t (0 : Fin 2) * 32 + 1 * k.val = k.val; rw [e0]; omega
  | ⟨1, _⟩ => show win0_4.index t (1 : Fin 2) * 64 + 1 * q.val = q.val; rw [e1]; omega

/-- The fourth weight window's block is the whole weight group, at every point. -/
theorem wgroup3_block (c : Dev nD) (t : Fin cfg0.N) (k : Fin 32) (q : Fin 64) :
    (iblk m c 5 t : Vec Ideal S32x64 .f32) (ix2 k q) = (V m c main_v19 : S32x64.Idx → EReal) (ix2 k q) := by
  obtain ⟨-, -, -, ⟨e0, e1⟩, -⟩ := idx_fixed t
  unfold iblk
  rw [View.read_apply]
  show (V m c main_v19 : S32x64.Idx → EReal) (((cfg0.win 5).blk t).view.emb (ix2 k q)) = _
  refine congrArg (V m c main_v19 : S32x64.Idx → EReal) (funext fun a => Fin.ext ?_)
  match a with
  | ⟨0, _⟩ => show win0_5.index t (0 : Fin 2) * 32 + 1 * k.val = k.val; rw [e0]; omega
  | ⟨1, _⟩ => show win0_5.index t (1 : Fin 2) * 64 + 1 * q.val = q.val; rw [e1]; omega

/-- The fifth weight window's block is the whole weight group, at every point. -/
theorem wgroup4_block (c : Dev nD) (t : Fin cfg0.N) (k : Fin 32) (q : Fin 64) :
    (iblk m c 6 t : Vec Ideal S32x64 .f32) (ix2 k q) = (V m c main_v20 : S32x64.Idx → EReal) (ix2 k q) := by
  obtain ⟨-, -, -, -, ⟨e0, e1⟩, -⟩ := idx_fixed t
  unfold iblk
  rw [View.read_apply]
  show (V m c main_v20 : S32x64.Idx → EReal) (((cfg0.win 6).blk t).view.emb (ix2 k q)) = _
  refine congrArg (V m c main_v20 : S32x64.Idx → EReal) (funext fun a => Fin.ext ?_)
  match a with
  | ⟨0, _⟩ => show win0_6.index t (0 : Fin 2) * 32 + 1 * k.val = k.val; rw [e0]; omega
  | ⟨1, _⟩ => show win0_6.index t (1 : Fin 2) * 64 + 1 * q.val = q.val; rw [e1]; omega

/-- The bias window's block is the whole bias row, at every point. -/
theorem bias_block (c : Dev nD) (t : Fin cfg0.N) (q : Fin 64) :
    (iblk m c 7 t : Vec Ideal S1x64 .f32) (ix2 0 q) = (V m c main_v21 : S1x64.Idx → EReal) (ix2 0 q) := by
  obtain ⟨-, -, -, -, -, e0, e1⟩ := idx_fixed t
  unfold iblk
  rw [View.read_apply]
  show (V m c main_v21 : S1x64.Idx → EReal) (((cfg0.win 7).blk t).view.emb (ix2 0 q)) = _
  refine congrArg (V m c main_v21 : S1x64.Idx → EReal) (funext fun a => Fin.ext ?_)
  match a with
  | ⟨0, _⟩ => show win0_7.index t (0 : Fin 2) * 1 + 1 * 0 = 0; rw [e0]
  | ⟨1, _⟩ => show win0_7.index t (1 : Fin 2) * 64 + 1 * q.val = q.val; rw [e1]; omega

/-- Entry (p, q) of the output window's block at point t, read off any contents of the output array, is the array's
    entry (4000·t + p, q). -/
theorem out_block (c : Dev nD) (t : Fin cfg0.N) (f : S1000000x64.Idx → EReal) (p : Fin 4000) (q : Fin 64) :
    ((cfg0.win 8).blk t).view.read (Elt Ideal) f (ix2 p q) = f (ix2 (row t p) q) := by
  obtain ⟨-, -, -, -, e0, e1⟩ := idx_rows t
  rw [View.read_apply]
  show f (((cfg0.win 8).blk t).view.emb (ix2 p q)) = _
  refine congrArg f (funext fun a => Fin.ext ?_)
  match a with
  | ⟨0, _⟩ => show win0_8.index t (0 : Fin 2) * 4000 + 1 * p.val = t.val * 4000 + p.val; rw [e0]; omega
  | ⟨1, _⟩ => show win0_8.index t (1 : Fin 2) * 64 + 1 * q.val = q.val; rw [e1]; omega

/-! ## What one point writes back -/

/-- A function of four numbers takes equal values at equal arguments. -/
theorem congr_four (f : EReal → EReal → EReal → EReal → EReal) {a0 a1 b0 b1 a0' a1' b0' b1' : EReal}
    (h0 : a0 = a0') (h1 : a1 = a1') (h2 : b0 = b0') (h3 : b1 = b1') : f a0 a1 b0 b1 = f a0' a1' b0' b1' := by
  subst h0 h1 h2 h3; rfl

/-- Lane 32·j + k of row p of the packed block at point t is entry k of gathered row j of edge 4000·t + p. -/
theorem nbr_lane (c : Dev nD) (t : Fin cfg0.N) (p : Fin 4000) (k : Fin 32) (o : Nat) (ho : o ≤ 96) (j : Fin 4)
    (h : o = 32 * j.val) :
    (iblk m c 1 t : Vec Ideal S4000x128 .f32) (ix2 p (Cert.Spec.lane o ho k))
      = Cert.HostStage.nbr m c (ix3 (row t p) j k) :=
  (packed_block m c t p (Cert.Spec.lane o ho k)).trans
    (Cert.HostStage.packed_apply m c (row t p) (Cert.Spec.lane o ho k) j k (by
      show o + k.val = 32 * j.val + k.val
      omega))

/-- Entry (p, q) of the block the body stores at point t is the specified result at edge 4000·t + p and channel q:
    each of the five sums agrees term by term — the edge's own row and its four gathered rows are read where the
    blocks lie, the weight blocks are the five groups of 32 columns of the weight matrix transposed, the bias row is
    the bias. -/
theorem stored_entry (c : Dev nD) (t : Fin cfg0.N) (p : Fin 4000) (q : Fin 64) :
    k0_pay1 (F := Ideal) (k0_pay9 (F := Ideal) (iblk m c 0 t) (iblk m c 1 t) (iblk m c 2 t) (iblk m c 3 t) (iblk m c 4 t) (iblk m c 5 t))
        (k0_pay10 (F := Ideal) (iblk m c 1 t)) (iblk m c 6 t) (iblk m c 7 t) (ix2 p q)
      = Cert.Spec.Gat (m ((c : Thread nD τ).loc main_arg0)) (Cert.HostStage.nbr m c)
          (m ((c : Thread nD τ).loc main_arg2)) (m ((c : Thread nD τ).loc main_arg3)) (row t p) q := by
  refine (Cert.Body.stored_at (iblk m c 0 t) (iblk m c 1 t) (iblk m c 2 t) (iblk m c 3 t) (iblk m c 4 t)
    (iblk m c 5 t) (iblk m c 6 t) (iblk m c 7 t) p q).trans ?_
  unfold Cert.Spec.Gat
  exact congrArg₂ (fun s u : EReal => s + u)
    (congrArg₂ (fun s u : EReal => s + u)
      (congrArg₂ (fun s u : EReal => s + u)
        (congrArg₂ (fun s u : EReal => s + u)
          (congrArg₂ (fun s u : EReal => s + u)
            (Finset.sum_congr rfl fun k _ => congrArg₂ (fun a w : EReal => a * w)
              ((own_block m c t p k).trans (congrFun (V_main_arg0 m c) (ix2 (row t p) k)))
              ((wgroup0_block m c t k q).trans (Cert.HostStage.wgroup0_apply m c k q)))
            (Finset.sum_congr rfl fun k _ => congrArg₂ (fun a w : EReal => a * w)
              (congr_four Cert.Spec.fSum (nbr_lane m c t p k 0 _ 0 rfl) (nbr_lane m c t p k 32 _ 1 rfl)
                (nbr_lane m c t p k 64 _ 2 rfl) (nbr_lane m c t p k 96 _ 3 rfl))
              ((wgroup1_block m c t k q).trans (Cert.HostStage.wgroup1_apply m c k q))))
          (Finset.sum_congr rfl fun k _ => congrArg₂ (fun a w : EReal => a * w)
              (congr_four Cert.Spec.fAbs (nbr_lane m c t p k 0 _ 0 rfl) (nbr_lane m c t p k 32 _ 1 rfl)
                (nbr_lane m c t p k 64 _ 2 rfl) (nbr_lane m c t p k 96 _ 3 rfl))
              ((wgroup2_block m c t k q).trans (Cert.HostStage.wgroup2_apply m c k q))))
        (Finset.sum_congr rfl fun k _ => congrArg₂ (fun a w : EReal => a * w)
              (congr_four Cert.Spec.fSumDiff (nbr_lane m c t p k 0 _ 0 rfl) (nbr_lane m c t p k 32 _ 1 rfl)
                (nbr_lane m c t p k 64 _ 2 rfl) (nbr_lane m c t p k 96 _ 3 rfl))
              ((wgroup3_block m c t k q).trans (Cert.HostStage.wgroup3_apply m c k q))))
      (Finset.sum_congr rfl fun k _ => congrArg₂ (fun a w : EReal => a * w)
              (congr_four Cert.Spec.fAbsDiff (nbr_lane m c t p k 0 _ 0 rfl) (nbr_lane m c t p k 32 _ 1 rfl)
                (nbr_lane m c t p k 64 _ 2 rfl) (nbr_lane m c t p k 96 _ 3 rfl))
              ((wgroup4_block m c t k q).trans (Cert.HostStage.wgroup4_apply m c k q))))
    ((bias_block m c t q).trans (Cert.HostStage.biasrow_apply m c q))

/-- The two zero offsets of a whole-block access, as the constant function. -/
theorem zero_offsets : (![0, 0] : Fin 2 → Nat) = fun _ => 0 := funext fun a => by fin_cases a <;> rfl

/-- What point t writes back to the output array is block t of the specified result: the body loads every input
    block whole and stores one whole block, whose entry (p, q) is the result at (4000·t + p, q). -/
theorem flushed_eq (c : Dev nD) (t : Fin cfg0.N) :
    (dats m 0 c).flushed 8 t = ((cfg0.win 8).blk t).view.read (Elt Ideal)
      (Cert.Spec.G (m ((c : Thread nD τ).loc main_arg0)) (Cert.HostStage.nbr m c)
        (m ((c : Thread nD τ).loc main_arg2)) (m ((c : Thread nD τ).loc main_arg3))) := by
  rw [flushed8]
  unfold out0_8
  rw [View.canon_unit_zero zero_offsets]
  simp only [View.ld_unit_zero (S := S4000x32) zero_offsets, View.ld_unit_zero (S := S4000x128) zero_offsets,
    View.ld_unit_zero (S := S32x64) zero_offsets, View.ld_unit_zero (S := S1x64) zero_offsets]
  funext j
  obtain ⟨p, q, rfl⟩ : ∃ (p : Fin 4000) (q : Fin 64), j = ix2 p q := ⟨j 0, j 1, eq_ix2 j⟩
  exact (stored_entry m c t p q).trans
    (out_block c t (Cert.Spec.G (m ((c : Thread nD τ).loc main_arg0)) (Cert.HostStage.nbr m c)
      (m ((c : Thread nD τ).loc main_arg2)) (m ((c : Thread nD τ).loc main_arg3))) p q).symm

/-! ## The blocks cover the array -/

/-- An entry of the output array is in point t's block iff each coordinate is in the block's range on its axis. -/
theorem mem_blk (t : Fin cfg0.N) (i : S1000000x64.Idx) :
    i ∈ ((cfg0.win 8).blk t).view.set ↔ ∀ a : Fin 2, win0_8.index t a * S4000x64.size a ≤ (i a).val
      ∧ (i a).val < win0_8.index t a * S4000x64.size a + S4000x64.size a := by
  show i ∈ ((View.whole main_v22).slice (win0_8.rect t)).set ↔ _
  rw [View.set_slice_whole, Rect.mem_set_unit]
  exact Iff.rfl

/-- Row r of the million rows is in the block of point r / 4000, and every point writes its block back. -/
theorem cover (i : S1000000x64.Idx) :
    ∃ t : Fin cfg0.N, (cfg0.win 8).flush t = true ∧ i ∈ ((cfg0.win 8).blk t).view.set := by
  have hi0 : (i 0).val < 1000000 := (i 0).isLt
  have hi1 : (i 1).val < 64 := (i 1).isLt
  have hN : cfg0.N = 250 := N_0
  have hlt : (i 0).val / 4000 < cfg0.N := by rw [hN]; omega
  obtain ⟨-, -, -, -, e0, e1⟩ := idx_rows ⟨(i 0).val / 4000, hlt⟩
  refine ⟨⟨(i 0).val / 4000, hlt⟩, flush0_8 _, ?_⟩
  rw [mem_blk]
  intro a
  match a with
  | ⟨0, _⟩ =>
    show win0_8.index ⟨(i 0).val / 4000, hlt⟩ (0 : Fin 2) * 4000 ≤ (i 0).val
      ∧ (i 0).val < win0_8.index ⟨(i 0).val / 4000, hlt⟩ (0 : Fin 2) * 4000 + 4000
    rw [e0]
    show (i 0).val / 4000 * 4000 ≤ (i 0).val ∧ (i 0).val < (i 0).val / 4000 * 4000 + 4000
    omega
  | ⟨1, _⟩ =>
    show win0_8.index ⟨(i 0).val / 4000, hlt⟩ (1 : Fin 2) * 64 ≤ (i 1).val
      ∧ (i 1).val < win0_8.index ⟨(i 0).val / 4000, hlt⟩ (1 : Fin 2) * 64 + 64
    rw [e1]
    omega

/-! ## The whole array, and the run -/

/-- After the last point the output array holds the specified result at every entry. -/
theorem final (c : Dev nD) :
    (dats m 0 c).arrAt 8 cfg0.N
      = Cert.Spec.G (m ((c : Thread nD τ).loc main_arg0)) (Cert.HostStage.nbr m c)
          (m ((c : Thread nD τ).loc main_arg2)) (m ((c : Thread nD τ).loc main_arg3)) :=
  (dats m 0 c).arrAt_eq_of_cover 8 _ (fun t _ => flushed_eq m c t) cover

/-- Every run of the program ends with the result array at the specified result of the arguments as launched (the
    gathered neighbour rows being what the host operations before the launch make of them), and the four arguments
    unchanged. -/
theorem run (ρ : Dev nD → PrngReg) :
    θ_run defs (onTc (τ := τ) (main (F := Ideal))) ⟨m, fun _ => 0, ρ⟩ fun r => ∀ c : Dev nD,
      r.2.mem ((c : Thread nD τ).loc main_v22)
          = Cert.Spec.G (m ((c : Thread nD τ).loc main_arg0)) (Cert.HostStage.nbr m c)
              (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.Blocks

end
-- ==== Proof.Gathered.lean ====
/-
  The gathered neighbour rows are one function of the edge rows and the neighbour indices in both programs.

  Both programs pad the edge rows with one zero row, clamp each neighbour index at zero from below, gather
  the row at each index, and replace the rows of negative indices by zeros. The kernel's host side does this in four
  stretches of operations before the region; read stretch by stretch, the buffer of the gathered rows holds the same
  composed term that the reference's stages name.
-/
import proofs.«142596_j69956427317463_2_alg».proof.Proof.HostStage
import proofs.«142596_j69956427317463_2_alg».proof.Proof.RefRead

noncomputable section

open Idealize.ShloMosaic Idealize.ShloMosaic.TcCoe Idealize.SL.Sem Idealize.ShloMosaic.StableHlo Idealize.ShloMosaic.ValueIdx

namespace Cert.Gathered

open Cert.KernelIdeal Cert.KernelIdeal.Gen Cert.HostStage

section Stretches

variable (W : Valuation τ sig (Elt Ideal))

/-! ### First stretch: the mask of negative indices -/

set_option maxHeartbeats 2000000 in
theorem first_mask :
    after hostOps0 W (Proc.devRef .tc main_v1)
      = cmpi .slt (W (Proc.devRef .tc main_arg1)) (broadcastInDim S1000000x4 ![] bcast_S_S1000000x4 (constantI S_ 32 0#32)) := by
  dsimp only [hostOps0]
  after_results

set_option maxHeartbeats 2000000 in
theorem first_zero : after hostOps0 W (Proc.devRef .tc main_c_0) = constantI S_ 32 0#32 := by
  dsimp only [hostOps0]
  after_results

set_option maxHeartbeats 2000000 in
theorem first_keeps_x : after hostOps0 W (Proc.devRef .tc main_arg0) = W (Proc.devRef .tc main_arg0) := by
  dsimp only [hostOps0]
  after_results

set_option maxHeartbeats 2000000 in
theorem first_keeps_idx : after hostOps0 W (Proc.devRef .tc main_arg1) = W (Proc.devRef .tc main_arg1) := by
  dsimp only [hostOps0]
  after_results

/-! ### Second stretch: the indices clamped at zero -/

set_option maxHeartbeats 2000000 in
theorem second_clamped :
    after hostOps0_1 W (Proc.devRef .tc main_v2)
      = maxsi (broadcastInDim S1000000x4 ![] bcast_S_S1000000x4 (id (W (Proc.devRef .tc main_c_0)))) (W (Proc.devRef .tc main_arg1)) := by
  dsimp only [hostOps0_1]
  after_results
  rfl

set_option maxHeartbeats 2000000 in
theorem second_keeps_mask : after hostOps0_1 W (Proc.devRef .tc main_v1) = W (Proc.devRef .tc main_v1) := by
  dsimp only [hostOps0_1]
  after_results

set_option maxHeartbeats 2000000 in
theorem second_keeps_x : after hostOps0_1 W (Proc.devRef .tc main_arg0) = W (Proc.devRef .tc main_arg0) := by
  dsimp only [hostOps0_1]
  after_results

/-! ### Third stretch: the padded table, the gather, the mask on three axes -/

set_option maxHeartbeats 4000000 in
theorem third_gathered :
    after hostOps0_2 W (Proc.devRef .tc main_v11)
      = Host.gather gather_S1000001x32_S1000000x4x1_S1000000x4x32_2_0_n_n_0_2_132
          (concatenate S1000001x32 0 [⟨S1000000x32, W (Proc.devRef .tc main_arg0)⟩,
            ⟨S1x32, broadcastInDim S1x32 ![] bcast_S_S1x32 (constant (F := Ideal) S_ .f32 0x00000000#32)⟩] concatenates_S1000000x32_S1x32_S1000001x32_d0)
          (broadcastInDim S1000000x4x1 ![0, 1] bcast_S1000000x4_S1000000x4x1_0_1
            (select (cmpi .slt (W (Proc.devRef .tc main_v2)) (broadcastInDim S1000000x4 ![] bcast_S_S1000000x4 (constantI S_ 32 0#32)))
              (addi (W (Proc.devRef .tc main_v2)) (broadcastInDim S1000000x4 ![] bcast_S_S1000000x4 (constantI S_ 32 1000001#32)))
              (W (Proc.devRef .tc main_v2)))) := by
  dsimp only [hostOps0_2]
  after_results

set_option maxHeartbeats 4000000 in
theorem third_mask :
    after hostOps0_2 W (Proc.devRef .tc main_v12)
      = broadcastInDim S1000000x4x1 ![0, 1] bcast_S1000000x4_S1000000x4x1_0_1 (W (Proc.devRef .tc main_v1)) := by
  dsimp only [hostOps0_2]
  after_results

set_option maxHeartbeats 4000000 in
theorem third_zero : after hostOps0_2 W (Proc.devRef .tc main_cst_3) = constant (F := Ideal) S_ .f32 0x00000000#32 := by
  dsimp only [hostOps0_2]
  after_results

/-! ### Fourth stretch: zeros where the index was negative -/

set_option maxHeartbeats 2000000 in
theorem fourth_masked :
    after hostOps0_3 W (Proc.devRef .tc main_v13)
      = select (broadcastInDim S1000000x4x32 ![0, 1, 2] bcast_S1000000x4x1_S1000000x4x32_0_1_2 (W (Proc.devRef .tc main_v12)))
          (broadcastInDim S1000000x4x32 ![] bcast_S_S1000000x4x32 (id (W (Proc.devRef .tc main_cst_3))))
          (W (Proc.devRef .tc main_v11)) := by
  dsimp only [hostOps0_3]
  after_results
  rfl

end Stretches

variable (m : (ℓ : Loc nD τ sig) → Buf (Elt Ideal) ℓ)

/-- The kernel's gathered rows are the reference's stage of the same name, of the same arguments. -/
theorem nbr_is_reference (c : Dev nD) :
    nbr m c = Cert.ReferenceIdeal.ReadP.val_main_v13 (F := Ideal) (m ((c : Thread nD τ).loc main_arg0)) (m ((c : Thread nD τ).loc main_arg1)) := by
  rw [nbr_eq]
  unfold beforeLast
  rw [fourth_masked, third_mask, third_zero, third_gathered, second_keeps_mask, second_keeps_x, second_clamped,
    first_mask, first_zero, first_keeps_x, first_keeps_idx]
  rfl

end Cert.Gathered

end
-- ==== Proof.RefSide.lean ====
/-
  The reference program computes the specification.

  Entry (e, o) of the reference's result is a product of the edge's 160 combined features with the transposed
  weights, plus the bias of channel o.  The combined features of edge e are, side by side along the columns,
      the edge's own row x(e, ·)                                   columns   0 ..  31,
      (a₀ + a₁) + (b₀ + b₁)   and   |a₀ − a₁| + |b₀ − b₁|          columns  32 ..  95,
      |(a₀ + a₁) − (b₀ + b₁)| and  ||a₀ − a₁| − |b₀ − b₁||         columns  96 .. 159,
  where a₀ a₁ b₀ b₁ are the four gathered neighbour rows of the edge.  The program forms the two middle blocks at
  once, as the sum and as the distance of the two 64-column arrays [a₀ + a₁ | |a₀ − a₁|] and [b₀ + b₁ | |b₀ − b₁|].
  Reading each array at an index, column by column, and cutting the sum over the 160 columns into its five
  consecutive groups of 32 gives the specification's five partial sums term by term.
-/
import proofs.«142596_j69956427317463_2_alg».proof.Proof.RefRead
import proofs.«142596_j69956427317463_2_alg».proof.Proof.Spec
import Idealize.ShloMosaic.Lib.Pipeline.Value
import Idealize.ShloMosaic.Lib.ValueIdx
import Idealize.ShloMosaic.PureOps.Ideal.Laws

noncomputable section

open scoped BigOperators

namespace Cert.RefSide

open Cert.ReferenceIdeal Cert.ReferenceIdeal.Gen Cert.ReferenceIdeal.ReadP
open Idealize.ShloMosaic Idealize.ShloMosaic.ValueIdx Idealize.ShloMosaic.StableHlo

/-- The edge rows [1000000, 32]. -/
abbrev XTy := (⟨S1000000x32, .f32⟩ : BufTy).Contents (Elt Ideal)
/-- The neighbour indices [1000000, 4]. -/
abbrev NTy := (⟨S1000000x4, .i32⟩ : BufTy).Contents (Elt Ideal)

open Cert.Spec (av fSum fAbs fSumDiff fAbsDiff wcol)

/-! ## The four gathered rows

  Row j of the gathered array [1000000, 4, 32] is cut out as a [1000000, 1, 32] slab starting at position j of the
  middle axis and then read as a [1000000, 32] array.  The reshape keeps the row-major position: position
  32·e + k of the flat array is (e, 0, k) of the slab, because (32·e + k) / 32 = e and (32·e + k) % 32 = k for k < 32. -/

/-- Entry (e, k) of the first gathered row is entry (e, 0, k) of the gathered array. -/
theorem row0_apply (x0 : XTy) (x1 : NTy) (e : Fin 1000000) (k : Fin 32) :
    val_main_v15 (F := Ideal) x0 x1 (ix2 e k) = val_main_v13 (F := Ideal) x0 x1 (ix3 e 0 k) := by
  rw [val_main_v15_apply, val_main_v14_apply]
  refine congrArg (val_main_v13 (F := Ideal) x0 x1) (funext fun a => Fin.ext ?_)
  have hk : k.val < 32 := k.isLt
  match a with
  | ⟨0, _⟩ => show (e.val * 32 + k.val) / 32 = e.val; omega
  | ⟨1, _⟩ => rfl
  | ⟨2, _⟩ => show (e.val * 32 + k.val) % 32 = k.val; omega

/-- Entry (e, k) of the second gathered row is entry (e, 1, k) of the gathered array. -/
theorem row1_apply (x0 : XTy) (x1 : NTy) (e : Fin 1000000) (k : Fin 32) :
    val_main_v17 (F := Ideal) x0 x1 (ix2 e k) = val_main_v13 (F := Ideal) x0 x1 (ix3 e 1 k) := by
  rw [val_main_v17_apply, val_main_v16_apply]
  refine congrArg (val_main_v13 (F := Ideal) x0 x1) (funext fun a => Fin.ext ?_)
  have hk : k.val < 32 := k.isLt
  match a with
  | ⟨0, _⟩ => show (e.val * 32 + k.val) / 32 = e.val; omega
  | ⟨1, _⟩ => rfl
  | ⟨2, _⟩ => show (e.val * 32 + k.val) % 32 = k.val; omega

/-- Entry (e, k) of the third gathered row is entry (e, 2, k) of the gathered array. -/
theorem row2_apply (x0 : XTy) (x1 : NTy) (e : Fin 1000000) (k : Fin 32) :
    val_main_v19 (F := Ideal) x0 x1 (ix2 e k) = val_main_v13 (F := Ideal) x0 x1 (ix3 e 2 k) := by
  rw [val_main_v19_apply, val_main_v18_apply]
  refine congrArg (val_main_v13 (F := Ideal) x0 x1) (funext fun a => Fin.ext ?_)
  have hk : k.val < 32 := k.isLt
  match a with
  | ⟨0, _⟩ => show (e.val * 32 + k.val) / 32 = e.val; omega
  | ⟨1, _⟩ => rfl
  | ⟨2, _⟩ => show (e.val * 32 + k.val) % 32 = k.val; omega

/-- Entry (e, k) of the fourth gathered row is entry (e, 3, k) of the gathered array. -/
theorem row3_apply (x0 : XTy) (x1 : NTy) (e : Fin 1000000) (k : Fin 32) :
    val_main_v21 (F := Ideal) x0 x1 (ix2 e k) = val_main_v13 (F := Ideal) x0 x1 (ix3 e 3 k) := by
  rw [val_main_v21_apply, val_main_v20_apply]
  refine congrArg (val_main_v13 (F := Ideal) x0 x1) (funext fun a => Fin.ext ?_)
  have hk : k.val < 32 := k.isLt
  match a with
  | ⟨0, _⟩ => show (e.val * 32 + k.val) / 32 = e.val; omega
  | ⟨1, _⟩ => rfl
  | ⟨2, _⟩ => show (e.val * 32 + k.val) % 32 = k.val; omega

/-! ## The pair sums and the pair distances

  For the first pair of rows a₀ a₁ the program forms a₀ + a₁ and |a₀ − a₁|, for the second pair b₀ b₁ the same.
  On the extended reals the host's absolute value of x is the larger of x and −x. -/

/-- a₀ + a₁ at (e, k). -/
theorem sumA_apply (x0 : XTy) (x1 : NTy) (e : Fin 1000000) (k : Fin 32) :
    val_main_v22 (F := Ideal) x0 x1 (ix2 e k)
      = val_main_v13 (F := Ideal) x0 x1 (ix3 e 0 k) + val_main_v13 (F := Ideal) x0 x1 (ix3 e 1 k) := by
  rw [val_main_v22_apply, row0_apply, row1_apply]
  rfl

/-- |a₀ − a₁| at (e, k). -/
theorem absA_apply (x0 : XTy) (x1 : NTy) (e : Fin 1000000) (k : Fin 32) :
    val_main_v24 (F := Ideal) x0 x1 (ix2 e k)
      = av (val_main_v13 (F := Ideal) x0 x1 (ix3 e 0 k) - val_main_v13 (F := Ideal) x0 x1 (ix3 e 1 k)) := by
  rw [val_main_v24_apply, val_main_v23_apply, row0_apply, row1_apply]
  rfl

/-- b₀ + b₁ at (e, k). -/
theorem sumB_apply (x0 : XTy) (x1 : NTy) (e : Fin 1000000) (k : Fin 32) :
    val_main_v26 (F := Ideal) x0 x1 (ix2 e k)
      = val_main_v13 (F := Ideal) x0 x1 (ix3 e 2 k) + val_main_v13 (F := Ideal) x0 x1 (ix3 e 3 k) := by
  rw [val_main_v26_apply, row2_apply, row3_apply]
  rfl

/-- |b₀ − b₁| at (e, k). -/
theorem absB_apply (x0 : XTy) (x1 : NTy) (e : Fin 1000000) (k : Fin 32) :
    val_main_v28 (F := Ideal) x0 x1 (ix2 e k)
      = av (val_main_v13 (F := Ideal) x0 x1 (ix3 e 2 k) - val_main_v13 (F := Ideal) x0 x1 (ix3 e 3 k)) := by
  rw [val_main_v28_apply, val_main_v27_apply, row2_apply, row3_apply]
  rfl

/-! ## The two 64-column arrays [sum | distance]

  Each pair's sum and distance are laid side by side: columns 0 .. 31 hold the sum, columns 32 .. 63 the distance.
  A column below 32 falls in the first piece at the same column; column 32 + k falls in the second piece at column k. -/

/-- Column k of a 64-column array, in its first half. -/
def colLo (k : Fin 32) : Fin 64 := ⟨k.val, by have := k.isLt; omega⟩
/-- Column 32 + k of a 64-column array, in its second half. -/
def colHi (k : Fin 32) : Fin 64 := ⟨32 + k.val, by have := k.isLt; omega⟩

/-- The first pair's array at a column of its first half is the pair's sum. -/
theorem pairA_lo (x0 : XTy) (x1 : NTy) (e : Fin 1000000) (k : Fin 32) :
    val_main_v25 (F := Ideal) x0 x1 (ix2 e (colLo k)) = val_main_v22 (F := Ideal) x0 x1 (ix2 e k) := by
  unfold val_main_v25
  exact concatenate_pair_apply_left (t := S1000000x64) (s₁ := S1000000x32) (s₂ := S1000000x32) (1 : Fin 2) _ _ _
    (ix2 e (colLo k)) rfl (ix2 e k) (fun b => by
      match b with
      | ⟨0, _⟩ => rfl
      | ⟨1, _⟩ => rfl)

/-- The first pair's array at a column of its second half is the pair's distance. -/
theorem pairA_hi (x0 : XTy) (x1 : NTy) (e : Fin 1000000) (k : Fin 32) :
    val_main_v25 (F := Ideal) x0 x1 (ix2 e (colHi k)) = val_main_v24 (F := Ideal) x0 x1 (ix2 e k) := by
  unfold val_main_v25
  exact concatenate_pair_apply_right (t := S1000000x64) (s₁ := S1000000x32) (s₂ := S1000000x32) (1 : Fin 2) _ _ _
    (ix2 e (colHi k)) rfl rfl (ix2 e k)
    (fun b hb => by
      match b with
      | ⟨0, _⟩ => rfl
      | ⟨1, _⟩ => exact absurd rfl hb)
    (by show k.val + 32 = 32 + k.val; omega)

/-- The second pair's array at a column of its first half is the pair's sum. -/
theorem pairB_lo (x0 : XTy) (x1 : NTy) (e : Fin 1000000) (k : Fin 32) :
    val_main_v29 (F := Ideal) x0 x1 (ix2 e (colLo k)) = val_main_v26 (F := Ideal) x0 x1 (ix2 e k) := by
  unfold val_main_v29
  exact concatenate_pair_apply_left (t := S1000000x64) (s₁ := S1000000x32) (s₂ := S1000000x32) (1 : Fin 2) _ _ _
    (ix2 e (colLo k)) rfl (ix2 e k) (fun b => by
      match b with
      | ⟨0, _⟩ => rfl
      | ⟨1, _⟩ => rfl)

/-- The second pair's array at a column of its second half is the pair's distance. -/
theorem pairB_hi (x0 : XTy) (x1 : NTy) (e : Fin 1000000) (k : Fin 32) :
    val_main_v29 (F := Ideal) x0 x1 (ix2 e (colHi k)) = val_main_v28 (F := Ideal) x0 x1 (ix2 e k) := by
  unfold val_main_v29
  exact concatenate_pair_apply_right (t := S1000000x64) (s₁ := S1000000x32) (s₂ := S1000000x32) (1 : Fin 2) _ _ _
    (ix2 e (colHi k)) rfl rfl (ix2 e k)
    (fun b hb => by
      match b with
      | ⟨0, _⟩ => rfl
      | ⟨1, _⟩ => exact absurd rfl hb)
    (by show k.val + 32 = 32 + k.val; omega)

/-! ## The four features

  The sum of the two arrays holds (a₀ + a₁) + (b₀ + b₁) in its first half and |a₀ − a₁| + |b₀ − b₁| in its second;
  the distance of the two arrays holds |(a₀ + a₁) − (b₀ + b₁)| and ||a₀ − a₁| − |b₀ − b₁||. -/

/-- The sum of the two arrays, first half: the sum of the two pair sums. -/
theorem arraySum_lo (x0 : XTy) (x1 : NTy) (e : Fin 1000000) (k : Fin 32) :
    val_main_v30 (F := Ideal) x0 x1 (ix2 e (colLo k))
      = fSum (val_main_v13 (F := Ideal) x0 x1 (ix3 e 0 k)) (val_main_v13 (F := Ideal) x0 x1 (ix3 e 1 k))
          (val_main_v13 (F := Ideal) x0 x1 (ix3 e 2 k)) (val_main_v13 (F := Ideal) x0 x1 (ix3 e 3 k)) := by
  rw [val_main_v30_apply, pairA_lo, pairB_lo, sumA_apply, sumB_apply]
  rfl

/-- The sum of the two arrays, second half: the sum of the two pair distances. -/
theorem arraySum_hi (x0 : XTy) (x1 : NTy) (e : Fin 1000000) (k : Fin 32) :
    val_main_v30 (F := Ideal) x0 x1 (ix2 e (colHi k))
      = fAbs (val_main_v13 (F := Ideal) x0 x1 (ix3 e 0 k)) (val_main_v13 (F := Ideal) x0 x1 (ix3 e 1 k))
          (val_main_v13 (F := Ideal) x0 x1 (ix3 e 2 k)) (val_main_v13 (F := Ideal) x0 x1 (ix3 e 3 k)) := by
  rw [val_main_v30_apply, pairA_hi, pairB_hi, absA_apply, absB_apply]
  rfl

/-- The distance of the two arrays, first half: the distance of the two pair sums. -/
theorem arrayDist_lo (x0 : XTy) (x1 : NTy) (e : Fin 1000000) (k : Fin 32) :
    val_main_v32 (F := Ideal) x0 x1 (ix2 e (colLo k))
      = fSumDiff (val_main_v13 (F := Ideal) x0 x1 (ix3 e 0 k)) (val_main_v13 (F := Ideal) x0 x1 (ix3 e 1 k))
          (val_main_v13 (F := Ideal) x0 x1 (ix3 e 2 k)) (val_main_v13 (F := Ideal) x0 x1 (ix3 e 3 k)) := by
  rw [val_main_v32_apply, val_main_v31_apply, pairA_lo, pairB_lo, sumA_apply, sumB_apply]
  rfl

/-- The distance of the two arrays, second half: the distance of the two pair distances. -/
theorem arrayDist_hi (x0 : XTy) (x1 : NTy) (e : Fin 1000000) (k : Fin 32) :
    val_main_v32 (F := Ideal) x0 x1 (ix2 e (colHi k))
      = fAbsDiff (val_main_v13 (F := Ideal) x0 x1 (ix3 e 0 k)) (val_main_v13 (F := Ideal) x0 x1 (ix3 e 1 k))
          (val_main_v13 (F := Ideal) x0 x1 (ix3 e 2 k)) (val_main_v13 (F := Ideal) x0 x1 (ix3 e 3 k)) := by
  rw [val_main_v32_apply, val_main_v31_apply, pairA_hi, pairB_hi, absA_apply, absB_apply]
  rfl

/-! ## The 160 combined columns

  The combined array lays the edge's own row (32 columns), the sum of the two arrays (64 columns) and their
  distance (64 columns) side by side.  Column o + k of the combined array, for a group that starts at column
  o ∈ {0, 32, 64, 96, 128}, lies in the piece whose span holds it, at that column less the columns before the piece:
  0 + k is column k of the own row, 32 + k and 64 + k are columns k and 32 + k of the sum (32 columns come before it),
  96 + k and 128 + k are columns k and 32 + k of the distance (96 columns come before it). -/

/-- Columns 0 .. 31: the edge's own row. -/
theorem combined_0 (x0 : XTy) (x1 : NTy) (e : Fin 1000000) (k : Fin 32) :
    val_main_v33 (F := Ideal) x0 x1 (ix2 e (wcol 0 (by omega) k)) = x0 (ix2 e k) := by
  unfold val_main_v33
  exact concatenate_apply_piece (t := S1000000x160) (1 : Fin 2) _ _ (ix2 e (wcol 0 (by omega) k))
    0 (by show (0 : Nat) < 3; decide) S1000000x32 x0 rfl rfl 0 rfl (ix2 e k)
    (fun b hb => by
      match b with
      | ⟨0, _⟩ => rfl
      | ⟨1, _⟩ => exact absurd rfl hb)
    (by show 0 + k.val = 0 + k.val; rfl)

/-- Columns 32 .. 63: the first half of the sum of the two arrays. -/
theorem combined_32 (x0 : XTy) (x1 : NTy) (e : Fin 1000000) (k : Fin 32) :
    val_main_v33 (F := Ideal) x0 x1 (ix2 e (wcol 32 (by omega) k)) = val_main_v30 (F := Ideal) x0 x1 (ix2 e (colLo k)) := by
  unfold val_main_v33
  exact concatenate_apply_piece (t := S1000000x160) (1 : Fin 2) _ _ (ix2 e (wcol 32 (by omega) k))
    1 (by show (1 : Nat) < 3; decide) S1000000x64 (val_main_v30 (F := Ideal) x0 x1) rfl rfl 32 rfl (ix2 e (colLo k))
    (fun b hb => by
      match b with
      | ⟨0, _⟩ => rfl
      | ⟨1, _⟩ => exact absurd rfl hb)
    (by show 32 + k.val = 32 + k.val; rfl)

/-- Columns 64 .. 95: the second half of the sum of the two arrays. -/
theorem combined_64 (x0 : XTy) (x1 : NTy) (e : Fin 1000000) (k : Fin 32) :
    val_main_v33 (F := Ideal) x0 x1 (ix2 e (wcol 64 (by omega) k)) = val_main_v30 (F := Ideal) x0 x1 (ix2 e (colHi k)) := by
  unfold val_main_v33
  exact concatenate_apply_piece (t := S1000000x160) (1 : Fin 2) _ _ (ix2 e (wcol 64 (by omega) k))
    1 (by show (1 : Nat) < 3; decide) S1000000x64 (val_main_v30 (F := Ideal) x0 x1) rfl rfl 32 rfl (ix2 e (colHi k))
    (fun b hb => by
      match b with
      | ⟨0, _⟩ => rfl
      | ⟨1, _⟩ => exact absurd rfl hb)
    (by show 32 + (32 + k.val) = 64 + k.val; omega)

/-- Columns 96 .. 127: the first half of the distance of the two arrays. -/
theorem combined_96 (x0 : XTy) (x1 : NTy) (e : Fin 1000000) (k : Fin 32) :
    val_main_v33 (F := Ideal) x0 x1 (ix2 e (wcol 96 (by omega) k)) = val_main_v32 (F := Ideal) x0 x1 (ix2 e (colLo k)) := by
  unfold val_main_v33
  exact concatenate_apply_piece (t := S1000000x160) (1 : Fin 2) _ _ (ix2 e (wcol 96 (by omega) k))
    2 (by show (2 : Nat) < 3; decide) S1000000x64 (val_main_v32 (F := Ideal) x0 x1) rfl rfl 96 rfl (ix2 e (colLo k))
    (fun b hb => by
      match b with
      | ⟨0, _⟩ => rfl
      | ⟨1, _⟩ => exact absurd rfl hb)
    (by show 96 + k.val = 96 + k.val; rfl)

/-- Columns 128 .. 159: the second half of the distance of the two arrays. -/
theorem combined_128 (x0 : XTy) (x1 : NTy) (e : Fin 1000000) (k : Fin 32) :
    val_main_v33 (F := Ideal) x0 x1 (ix2 e (wcol 128 (by omega) k)) = val_main_v32 (F := Ideal) x0 x1 (ix2 e (colHi k)) := by
  unfold val_main_v33
  exact concatenate_apply_piece (t := S1000000x160) (1 : Fin 2) _ _ (ix2 e (wcol 128 (by omega) k))
    2 (by show (2 : Nat) < 3; decide) S1000000x64 (val_main_v32 (F := Ideal) x0 x1) rfl rfl 96 rfl (ix2 e (colHi k))
    (fun b hb => by
      match b with
      | ⟨0, _⟩ => rfl
      | ⟨1, _⟩ => exact absurd rfl hb)
    (by show 96 + (32 + k.val) = 128 + k.val; omega)

/-! ## The product with the transposed weights, and the bias

  The product contracts the 160 combined columns with the rows of the transposed weights: row c, column o of the
  transpose is W (o, c).  The bias is a vector over the output channels, repeated on every edge. -/

/-- Entry (e, o) of the product: the sum over the 160 columns c of combined (e, c) · W (o, c). -/
theorem product_apply (x0 : XTy) (x1 : NTy) (x2 : (⟨S64x160, .f32⟩ : BufTy).Contents (Elt Ideal))
    (e : Fin 1000000) (o : Fin 64) :
    val_main_v35 (F := Ideal) x0 x1 x2 (ix2 e o)
      = ∑ c : Fin 160, val_main_v33 (F := Ideal) x0 x1 (ix2 e c) * x2 (ix2 o c) := by
  rw [val_main_v35_apply]
  refine Finset.sum_congr rfl fun c _ => ?_
  rw [val_main_v34_apply]
  refine congrArg₂ (· * ·) (congrArg (val_main_v33 (F := Ideal) x0 x1) (funext fun a => ?_)) (congrArg x2 (funext fun a => ?_))
  · match a with
    | ⟨0, _⟩ => rfl
    | ⟨1, _⟩ => rfl
  · match a with
    | ⟨0, _⟩ => rfl
    | ⟨1, _⟩ => rfl

/-- Entry (e, o) of the repeated bias is b (o). -/
theorem bias_apply (x3 : (⟨S64, .f32⟩ : BufTy).Contents (Elt Ideal)) (e : Fin 1000000) (o : Fin 64) :
    val_main_v37 (F := Ideal) x3 (ix2 e o) = x3 (ix1 o) := by
  rw [val_main_v37_apply, val_main_v36_apply]
  refine congrArg x3 (funext fun a => ?_)
  match a with
  | ⟨0, _⟩ => rfl

/-! ## The reference is the specification

  At (e, o) the reference is the sum over the 160 columns plus b (o).  The sum over 160 columns is the sum of its
  five consecutive groups of 32, added from the left; in group s the term at k is column 32·s + k of the combined
  array times W (o, 32·s + k), and that column is the own row's entry for s = 0 and the s-th feature of the four
  gathered rows for s = 1, 2, 3, 4: the five partial sums of the specification, term by term. -/

theorem ref_is_G (x0 : (⟨S1000000x32, .f32⟩ : BufTy).Contents (Elt Ideal)) (x1 : (⟨S1000000x4, .i32⟩ : BufTy).Contents (Elt Ideal))
    (x2 : (⟨S64x160, .f32⟩ : BufTy).Contents (Elt Ideal)) (x3 : (⟨S64, .f32⟩ : BufTy).Contents (Elt Ideal)) :
    Cert.ReferenceIdeal.ReadP.val_main_v38 (F := Ideal) x0 x1 x2 x3
      = Cert.Spec.G x0 (Cert.ReferenceIdeal.ReadP.val_main_v13 (F := Ideal) x0 x1) x2 x3 := by
  funext i
  obtain ⟨e, o, rfl⟩ : ∃ (e : Fin 1000000) (o : Fin 64), i = ix2 e o := ⟨i 0, i 1, eq_ix2 i⟩
  rw [val_main_v38_apply, product_apply, bias_apply, Cert.Spec.G_ix2,
    Cert.Spec.sum_160 (fun c : Fin 160 => val_main_v33 (F := Ideal) x0 x1 (ix2 e c) * x2 (ix2 o c))]
  unfold Cert.Spec.Gat
  -- both sides are (five partial sums, added from the left) + b (o); the partial sums agree term by term
  refine congrArg₂ (· + ·) (congrArg₂ (· + ·) (congrArg₂ (· + ·) (congrArg₂ (· + ·) (congrArg₂ (· + ·) ?_ ?_) ?_) ?_) ?_) rfl
  · exact Finset.sum_congr rfl fun k _ => congrArg (· * x2 (ix2 o (wcol 0 (by omega) k))) (combined_0 x0 x1 e k)
  · exact Finset.sum_congr rfl fun k _ => congrArg (· * x2 (ix2 o (wcol 32 (by omega) k)))
      ((combined_32 x0 x1 e k).trans (arraySum_lo x0 x1 e k))
  · exact Finset.sum_congr rfl fun k _ => congrArg (· * x2 (ix2 o (wcol 64 (by omega) k)))
      ((combined_64 x0 x1 e k).trans (arraySum_hi x0 x1 e k))
  · exact Finset.sum_congr rfl fun k _ => congrArg (· * x2 (ix2 o (wcol 96 (by omega) k)))
      ((combined_96 x0 x1 e k).trans (arrayDist_lo x0 x1 e k))
  · exact Finset.sum_congr rfl fun k _ => congrArg (· * x2 (ix2 o (wcol 128 (by omega) k)))
      ((combined_128 x0 x1 e k).trans (arrayDist_hi x0 x1 e k))

end Cert.RefSide

end
-- ==== Proof.RefRun.lean ====
/-
  The reference program runs to its end, and its result buffer then holds the reference's last stage of the arguments.

  The program is a straight line of 50 operations; after the line every buffer holds the fold of the operations'
  results over the launch contents.  The fold is read in five consecutive stretches, each over an arbitrary
  valuation of the buffers before it, so that each stretch is a short computation: what the stretch writes is a
  pure term of what it reads, and the four arguments pass through every stretch unchanged.  Composed, the five
  terms are the stages of the reference, one inside the other.
-/
import proofs.«142596_j69956427317463_2_alg».proof.Proof.RefOps
import proofs.«142596_j69956427317463_2_alg».proof.Proof.RefRead
import Idealize.ShloMosaic.Lib.StableHlo.Run

noncomputable section

open Idealize.ShloMosaic Idealize.ShloMosaic.TcCoe Idealize.SL.Sem Idealize.ShloMosaic.StableHlo

namespace Cert.RefRun

open Cert.ReferenceIdeal Cert.ReferenceIdeal.Gen Cert.ReferenceIdeal.ValueP

/-! ## The five stretches -/

section Cut

variable {F : FTy → Type} [FloatOps F]

/-- Operations 1 to 16: the edge rows padded with one zero row, the neighbour indices clamped at zero and wrapped, the gather. -/
def s1 : List (HloOp τ sig (Elt F)) :=
  [ nullary main_cst (constant S_ .f32 0x00000000#32),
    unary main_cst main_v0 (broadcastInDim S1x32 ![] bcast_S_S1x32 : (⟨S_, .f32⟩ : BufTy).Contents (Elt F) → (⟨S1x32, .f32⟩ : BufTy).Contents (Elt F)),
    binary main_arg0 main_v0 main_v1 ((fun a b => concatenate S1000001x32 0 [⟨S1000000x32, a⟩, ⟨S1x32, b⟩] concatenates_S1000000x32_S1x32_S1000001x32_d0) : (⟨S1000000x32, .f32⟩ : BufTy).Contents (Elt F) → (⟨S1x32, .f32⟩ : BufTy).Contents (Elt F) → (⟨S1000001x32, .f32⟩ : BufTy).Contents (Elt F)),
    nullary main_c (constantI S_ 32 0#32),
    TRef.unary (TRef.of (T := ⟨S_, .i32⟩) main_c) (TRef.of (T := ⟨S_, .i32⟩) main_call0_v0) id,
    TRef.unary (TRef.of (T := ⟨S_, .i32⟩) main_call0_v0) (TRef.of (T := ⟨S1000000x4, .i32⟩) main_call0_v1) (broadcastInDim S1000000x4 ![] bcast_S_S1000000x4),
    TRef.binary (TRef.of (T := ⟨S1000000x4, .i32⟩) main_call0_v1) (TRef.of (T := ⟨S1000000x4, .i32⟩) main_arg1) (TRef.of (T := ⟨S1000000x4, .i32⟩) main_v2) maxsi,
    nullary main_c_0 (constantI S_ 32 0#32),
    unary main_c_0 main_v3 (broadcastInDim S1000000x4 ![] bcast_S_S1000000x4 : (⟨S_, .i32⟩ : BufTy).Contents (Elt F) → (⟨S1000000x4, .i32⟩ : BufTy).Contents (Elt F)),
    binary main_v2 main_v3 main_v4 (cmpi .slt : (⟨S1000000x4, .i32⟩ : BufTy).Contents (Elt F) → (⟨S1000000x4, .i32⟩ : BufTy).Contents (Elt F) → (⟨S1000000x4, .i1⟩ : BufTy).Contents (Elt F)),
    nullary main_c_1 (constantI S_ 32 1000001#32),
    unary main_c_1 main_v5 (broadcastInDim S1000000x4 ![] bcast_S_S1000000x4 : (⟨S_, .i32⟩ : BufTy).Contents (Elt F) → (⟨S1000000x4, .i32⟩ : BufTy).Contents (Elt F)),
    binary main_v2 main_v5 main_v6 (addi : (⟨S1000000x4, .i32⟩ : BufTy).Contents (Elt F) → (⟨S1000000x4, .i32⟩ : BufTy).Contents (Elt F) → (⟨S1000000x4, .i32⟩ : BufTy).Contents (Elt F)),
    ternary main_v4 main_v6 main_v2 main_v7 (select : (⟨S1000000x4, .i1⟩ : BufTy).Contents (Elt F) → (⟨S1000000x4, .i32⟩ : BufTy).Contents (Elt F) → (⟨S1000000x4, .i32⟩ : BufTy).Contents (Elt F) → (⟨S1000000x4, .i32⟩ : BufTy).Contents (Elt F)),
    unary main_v7 main_v8 (broadcastInDim S1000000x4x1 ![0, 1] bcast_S1000000x4_S1000000x4x1_0_1 : (⟨S1000000x4, .i32⟩ : BufTy).Contents (Elt F) → (⟨S1000000x4x1, .i32⟩ : BufTy).Contents (Elt F)),
    binary main_v1 main_v8 main_v9 ((fun x i => Host.gather gather_S1000001x32_S1000000x4x1_S1000000x4x32_2_0_n_n_0_2_132 x i) : (⟨S1000001x32, .f32⟩ : BufTy).Contents (Elt F) → (⟨S1000000x4x1, .i32⟩ : BufTy).Contents (Elt F) → (⟨S1000000x4x32, .f32⟩ : BufTy).Contents (Elt F)) ]

/-- Operations 17 to 25: the rows of negative indices replaced by zeros. -/
def s2 : List (HloOp τ sig (Elt F)) :=
  [ nullary main_c_2 (constantI S_ 32 0#32),
    unary main_c_2 main_v10 (broadcastInDim S1000000x4 ![] bcast_S_S1000000x4 : (⟨S_, .i32⟩ : BufTy).Contents (Elt F) → (⟨S1000000x4, .i32⟩ : BufTy).Contents (Elt F)),
    binary main_arg1 main_v10 main_v11 (cmpi .slt : (⟨S1000000x4, .i32⟩ : BufTy).Contents (Elt F) → (⟨S1000000x4, .i32⟩ : BufTy).Contents (Elt F) → (⟨S1000000x4, .i1⟩ : BufTy).Contents (Elt F)),
    unary main_v11 main_v12 (broadcastInDim S1000000x4x1 ![0, 1] bcast_S1000000x4_S1000000x4x1_0_1 : (⟨S1000000x4, .i1⟩ : BufTy).Contents (Elt F) → (⟨S1000000x4x1, .i1⟩ : BufTy).Contents (Elt F)),
    nullary main_cst_3 (constant S_ .f32 0x00000000#32),
    TRef.unary (TRef.of (T := ⟨S_, .f32⟩) main_cst_3) (TRef.of (T := ⟨S_, .f32⟩) main_call1_v0) id,
    TRef.unary (TRef.of (T := ⟨S1000000x4x1, .i1⟩) main_v12) (TRef.of (T := ⟨S1000000x4x32, .i1⟩) main_call1_v1) (broadcastInDim S1000000x4x32 ![0, 1, 2] bcast_S1000000x4x1_S1000000x4x32_0_1_2),
    TRef.unary (TRef.of (T := ⟨S_, .f32⟩) main_call1_v0) (TRef.of (T := ⟨S1000000x4x32, .f32⟩) main_call1_v2) (broadcastInDim S1000000x4x32 ![] bcast_S_S1000000x4x32),
    TRef.ternary (TRef.of (T := ⟨S1000000x4x32, .i1⟩) main_call1_v1) (TRef.of (T := ⟨S1000000x4x32, .f32⟩) main_call1_v2) (TRef.of (T := ⟨S1000000x4x32, .f32⟩) main_v9) (TRef.of (T := ⟨S1000000x4x32, .f32⟩) main_v13) select ]

/-- Operations 26 to 33: the four gathered rows, each cut out and read as a [1000000, 32] array. -/
def s3 : List (HloOp τ sig (Elt F)) :=
  [ unary main_v13 main_v14 ((extractStridedSlice S1000000x1x32 ![0, 0, 0] · slices_S1000000x4x32_S1000000x1x32_0_0_0) : (⟨S1000000x4x32, .f32⟩ : BufTy).Contents (Elt F) → (⟨S1000000x1x32, .f32⟩ : BufTy).Contents (Elt F)),
    reshape main_v14 main_v15 rfl shapeCasts_S1000000x1x32_S1000000x32,
    unary main_v13 main_v16 ((extractStridedSlice S1000000x1x32 ![0, 1, 0] · slices_S1000000x4x32_S1000000x1x32_0_1_0) : (⟨S1000000x4x32, .f32⟩ : BufTy).Contents (Elt F) → (⟨S1000000x1x32, .f32⟩ : BufTy).Contents (Elt F)),
    reshape main_v16 main_v17 rfl shapeCasts_S1000000x1x32_S1000000x32,
    unary main_v13 main_v18 ((extractStridedSlice S1000000x1x32 ![0, 2, 0] · slices_S1000000x4x32_S1000000x1x32_0_2_0) : (⟨S1000000x4x32, .f32⟩ : BufTy).Contents (Elt F) → (⟨S1000000x1x32, .f32⟩ : BufTy).Contents (Elt F)),
    reshape main_v18 main_v19 rfl shapeCasts_S1000000x1x32_S1000000x32,
    unary main_v13 main_v20 ((extractStridedSlice S1000000x1x32 ![0, 3, 0] · slices_S1000000x4x32_S1000000x1x32_0_3_0) : (⟨S1000000x4x32, .f32⟩ : BufTy).Contents (Elt F) → (⟨S1000000x1x32, .f32⟩ : BufTy).Contents (Elt F)),
    reshape main_v20 main_v21 rfl shapeCasts_S1000000x1x32_S1000000x32 ]

/-- Operations 34 to 44: the pair sums and distances, the two 64-column arrays, their sum and their distance. -/
def s4 : List (HloOp τ sig (Elt F)) :=
  [ binary main_v15 main_v17 main_v22 (addf : (⟨S1000000x32, .f32⟩ : BufTy).Contents (Elt F) → (⟨S1000000x32, .f32⟩ : BufTy).Contents (Elt F) → (⟨S1000000x32, .f32⟩ : BufTy).Contents (Elt F)),
    binary main_v15 main_v17 main_v23 (subf : (⟨S1000000x32, .f32⟩ : BufTy).Contents (Elt F) → (⟨S1000000x32, .f32⟩ : BufTy).Contents (Elt F) → (⟨S1000000x32, .f32⟩ : BufTy).Contents (Elt F)),
    unary main_v23 main_v24 (Host.absf : (⟨S1000000x32, .f32⟩ : BufTy).Contents (Elt F) → (⟨S1000000x32, .f32⟩ : BufTy).Contents (Elt F)),
    binary main_v22 main_v24 main_v25 ((fun a b => concatenate S1000000x64 1 [⟨S1000000x32, a⟩, ⟨S1000000x32, b⟩] concatenates_S1000000x32_S1000000x32_S1000000x64_d1) : (⟨S1000000x32, .f32⟩ : BufTy).Contents (Elt F) → (⟨S1000000x32, .f32⟩ : BufTy).Contents (Elt F) → (⟨S1000000x64, .f32⟩ : BufTy).Contents (Elt F)),
    binary main_v19 main_v21 main_v26 (addf : (⟨S1000000x32, .f32⟩ : BufTy).Contents (Elt F) → (⟨S1000000x32, .f32⟩ : BufTy).Contents (Elt F) → (⟨S1000000x32, .f32⟩ : BufTy).Contents (Elt F)),
    binary main_v19 main_v21 main_v27 (subf : (⟨S1000000x32, .f32⟩ : BufTy).Contents (Elt F) → (⟨S1000000x32, .f32⟩ : BufTy).Contents (Elt F) → (⟨S1000000x32, .f32⟩ : BufTy).Contents (Elt F)),
    unary main_v27 main_v28 (Host.absf : (⟨S1000000x32, .f32⟩ : BufTy).Contents (Elt F) → (⟨S1000000x32, .f32⟩ : BufTy).Contents (Elt F)),
    binary main_v26 main_v28 main_v29 ((fun a b => concatenate S1000000x64 1 [⟨S1000000x32, a⟩, ⟨S1000000x32, b⟩] concatenates_S1000000x32_S1000000x32_S1000000x64_d1) : (⟨S1000000x32, .f32⟩ : BufTy).Contents (Elt F) → (⟨S1000000x32, .f32⟩ : BufTy).Contents (Elt F) → (⟨S1000000x64, .f32⟩ : BufTy).Contents (Elt F)),
    binary main_v25 main_v29 main_v30 (addf : (⟨S1000000x64, .f32⟩ : BufTy).Contents (Elt F) → (⟨S1000000x64, .f32⟩ : BufTy).Contents (Elt F) → (⟨S1000000x64, .f32⟩ : BufTy).Contents (Elt F)),
    binary main_v25 main_v29 main_v31 (subf : (⟨S1000000x64, .f32⟩ : BufTy).Contents (Elt F) → (⟨S1000000x64, .f32⟩ : BufTy).Contents (Elt F) → (⟨S1000000x64, .f32⟩ : BufTy).Contents (Elt F)),
    unary main_v31 main_v32 (Host.absf : (⟨S1000000x64, .f32⟩ : BufTy).Contents (Elt F) → (⟨S1000000x64, .f32⟩ : BufTy).Contents (Elt F)) ]

/-- Operations 45 to 50: the 160 combined columns, their product with the transposed weights, plus the bias. -/
def s5 : List (HloOp τ sig (Elt F)) :=
  [ nary ![main_arg0, main_v30, main_v32] main_v33 (fun u => concatenate S1000000x160 1 [⟨S1000000x32, u 0⟩, ⟨S1000000x64, u 1⟩, ⟨S1000000x64, u 2⟩] concatenates_S1000000x32_S1000000x64_S1000000x64_S1000000x160_d1),
    unary main_arg2 main_v34 ((transpose S160x64 [1, 0] · transposes_S64x160_S160x64_1_0) : (⟨S64x160, .f32⟩ : BufTy).Contents (Elt F) → (⟨S160x64, .f32⟩ : BufTy).Contents (Elt F)),
    binary main_v33 main_v34 main_v35 ((fun l r => Host.dotGeneral dot_S1000000x160_S160x64_S1000000x64_1_0_0_1_n_n none l r) : (⟨S1000000x160, .f32⟩ : BufTy).Contents (Elt F) → (⟨S160x64, .f32⟩ : BufTy).Contents (Elt F) → (⟨S1000000x64, .f32⟩ : BufTy).Contents (Elt F)),
    unary main_arg3 main_v36 (broadcastInDim S1x64 ![1] bcast_S64_S1x64_1 : (⟨S64, .f32⟩ : BufTy).Contents (Elt F) → (⟨S1x64, .f32⟩ : BufTy).Contents (Elt F)),
    unary main_v36 main_v37 (broadcastInDim S1000000x64 ![0, 1] bcast_S1x64_S1000000x64_0_1 : (⟨S1x64, .f32⟩ : BufTy).Contents (Elt F) → (⟨S1000000x64, .f32⟩ : BufTy).Contents (Elt F)),
    binary main_v35 main_v37 main_v38 (addf : (⟨S1000000x64, .f32⟩ : BufTy).Contents (Elt F) → (⟨S1000000x64, .f32⟩ : BufTy).Contents (Elt F) → (⟨S1000000x64, .f32⟩ : BufTy).Contents (Elt F)) ]

/-! ### What the later stretches compute, as functions of what they read -/

/-- Row j of the gathered array [1000000, 4, 32]: the slab [1000000, 1, 32] at position j of the middle axis, read
    as a [1000000, 32] array. -/
def rowOf (j : Nat) (h : S1000000x4x32.Slices ![0, j, 0] S1000000x1x32)
    (N : (⟨S1000000x4x32, .f32⟩ : BufTy).Contents (Elt F)) : (⟨S1000000x32, .f32⟩ : BufTy).Contents (Elt F) :=
  shapeCast _ (extractStridedSlice S1000000x1x32 ![0, j, 0] N h) shapeCasts_S1000000x1x32_S1000000x32

/-- The 64-column array of a pair of rows: their sum beside their distance. -/
def pairArray (a b : (⟨S1000000x32, .f32⟩ : BufTy).Contents (Elt F)) : (⟨S1000000x64, .f32⟩ : BufTy).Contents (Elt F) :=
  concatenate S1000000x64 1 [⟨S1000000x32, addf a b⟩, ⟨S1000000x32, Host.absf (subf a b)⟩] concatenates_S1000000x32_S1000000x32_S1000000x64_d1

/-- The result from the edge rows x, the sum s and the distance d of the two 64-column arrays, the weights and the
    bias: the 160 columns [x | s | d] times the transposed weights, plus the bias on every edge. -/
def lastStage (x : (⟨S1000000x32, .f32⟩ : BufTy).Contents (Elt F)) (s d : (⟨S1000000x64, .f32⟩ : BufTy).Contents (Elt F))
    (w : (⟨S64x160, .f32⟩ : BufTy).Contents (Elt F)) (b : (⟨S64, .f32⟩ : BufTy).Contents (Elt F)) :
    (⟨S1000000x64, .f32⟩ : BufTy).Contents (Elt F) :=
  addf (Host.dotGeneral dot_S1000000x160_S160x64_S1000000x64_1_0_0_1_n_n none
      (concatenate S1000000x160 1 [⟨S1000000x32, x⟩, ⟨S1000000x64, s⟩, ⟨S1000000x64, d⟩] concatenates_S1000000x32_S1000000x64_S1000000x64_S1000000x160_d1)
      (transpose S160x64 [1, 0] w transposes_S64x160_S160x64_1_0))
    (broadcastInDim S1000000x64 ![0, 1] bcast_S1x64_S1000000x64_0_1 (broadcastInDim S1x64 ![1] bcast_S64_S1x64_1 b))

end Cut

set_option maxRecDepth 8192 in
/-- The 50 operations are the five stretches one after the other. -/
theorem ops_cut : ops (F := Ideal) = s1 ++ (s2 ++ (s3 ++ (s4 ++ s5))) := rfl

/-- Running a list of operations that is split in two runs the first part, then the second. -/
theorem after_append (A B : List (HloOp τ sig (Elt Ideal))) (W : Valuation τ sig (Elt Ideal)) :
    after (A ++ B) W = after B (after A W) := by
  induction A generalizing W with
  | nil => rfl
  | cons a A ih => exact ih _

section Stretches

variable (W : Valuation τ sig (Elt Ideal))

/-! ### First stretch: the gather -/

set_option maxHeartbeats 4000000 in
/-- After the first stretch the gathered rows are the reference's gather stage of the edge rows and the indices. -/
theorem s1_gathered :
    after s1 W (Proc.devRef .tc main_v9)
      = ReadP.val_main_v9 (F := Ideal) (W (Proc.devRef .tc main_arg0)) (W (Proc.devRef .tc main_arg1)) := by
  dsimp only [s1]
  after_results
  rfl

/-! The first stretch writes none of the four arguments. -/

set_option maxHeartbeats 4000000 in
theorem s1_keeps_x : after s1 W (Proc.devRef .tc main_arg0) = W (Proc.devRef .tc main_arg0) := by
  dsimp only [s1]
  after_results

set_option maxHeartbeats 4000000 in
theorem s1_keeps_idx : after s1 W (Proc.devRef .tc main_arg1) = W (Proc.devRef .tc main_arg1) := by
  dsimp only [s1]
  after_results

set_option maxHeartbeats 4000000 in
theorem s1_keeps_w : after s1 W (Proc.devRef .tc main_arg2) = W (Proc.devRef .tc main_arg2) := by
  dsimp only [s1]
  after_results

set_option maxHeartbeats 4000000 in
theorem s1_keeps_b : after s1 W (Proc.devRef .tc main_arg3) = W (Proc.devRef .tc main_arg3) := by
  dsimp only [s1]
  after_results

/-! ### Second stretch: zeros where the index was negative -/

set_option maxHeartbeats 2000000 in
/-- After the second stretch the masked rows are the gathered rows with the rows of negative indices at zero. -/
theorem s2_masked :
    after s2 W (Proc.devRef .tc main_v13)
      = select (ReadP.val_main_call1_v1 (F := Ideal) (W (Proc.devRef .tc main_arg1))) (ReadP.val_main_call1_v2 (F := Ideal))
          (W (Proc.devRef .tc main_v9)) := by
  dsimp only [s2]
  after_results
  rfl

/-! The second stretch writes none of the four arguments. -/

set_option maxHeartbeats 2000000 in
theorem s2_keeps_x : after s2 W (Proc.devRef .tc main_arg0) = W (Proc.devRef .tc main_arg0) := by
  dsimp only [s2]
  after_results

set_option maxHeartbeats 2000000 in
theorem s2_keeps_idx : after s2 W (Proc.devRef .tc main_arg1) = W (Proc.devRef .tc main_arg1) := by
  dsimp only [s2]
  after_results

set_option maxHeartbeats 2000000 in
theorem s2_keeps_w : after s2 W (Proc.devRef .tc main_arg2) = W (Proc.devRef .tc main_arg2) := by
  dsimp only [s2]
  after_results

set_option maxHeartbeats 2000000 in
theorem s2_keeps_b : after s2 W (Proc.devRef .tc main_arg3) = W (Proc.devRef .tc main_arg3) := by
  dsimp only [s2]
  after_results

/-! ### Third stretch: the four rows -/

set_option maxHeartbeats 2000000 in
/-- After the third stretch row 0 of the masked rows stands as a [1000000, 32] array. -/
theorem s3_row0 :
    after s3 W (Proc.devRef .tc main_v15) = rowOf 0 slices_S1000000x4x32_S1000000x1x32_0_0_0 (W (Proc.devRef .tc main_v13)) := by
  dsimp only [s3]
  after_results
  rfl

set_option maxHeartbeats 2000000 in
/-- After the third stretch row 1 of the masked rows stands as a [1000000, 32] array. -/
theorem s3_row1 :
    after s3 W (Proc.devRef .tc main_v17) = rowOf 1 slices_S1000000x4x32_S1000000x1x32_0_1_0 (W (Proc.devRef .tc main_v13)) := by
  dsimp only [s3]
  after_results
  rfl

set_option maxHeartbeats 2000000 in
/-- After the third stretch row 2 of the masked rows stands as a [1000000, 32] array. -/
theorem s3_row2 :
    after s3 W (Proc.devRef .tc main_v19) = rowOf 2 slices_S1000000x4x32_S1000000x1x32_0_2_0 (W (Proc.devRef .tc main_v13)) := by
  dsimp only [s3]
  after_results
  rfl

set_option maxHeartbeats 2000000 in
/-- After the third stretch row 3 of the masked rows stands as a [1000000, 32] array. -/
theorem s3_row3 :
    after s3 W (Proc.devRef .tc main_v21) = rowOf 3 slices_S1000000x4x32_S1000000x1x32_0_3_0 (W (Proc.devRef .tc main_v13)) := by
  dsimp only [s3]
  after_results
  rfl

/-! The third stretch writes none of the four arguments. -/

set_option maxHeartbeats 2000000 in
theorem s3_keeps_x : after s3 W (Proc.devRef .tc main_arg0) = W (Proc.devRef .tc main_arg0) := by
  dsimp only [s3]
  after_results

set_option maxHeartbeats 2000000 in
theorem s3_keeps_idx : after s3 W (Proc.devRef .tc main_arg1) = W (Proc.devRef .tc main_arg1) := by
  dsimp only [s3]
  after_results

set_option maxHeartbeats 2000000 in
theorem s3_keeps_w : after s3 W (Proc.devRef .tc main_arg2) = W (Proc.devRef .tc main_arg2) := by
  dsimp only [s3]
  after_results

set_option maxHeartbeats 2000000 in
theorem s3_keeps_b : after s3 W (Proc.devRef .tc main_arg3) = W (Proc.devRef .tc main_arg3) := by
  dsimp only [s3]
  after_results

/-! ### Fourth stretch: the sum and the distance of the two 64-column arrays -/

set_option maxHeartbeats 4000000 in
/-- After the fourth stretch the sum of the two pairs' arrays. -/
theorem s4_arraySum :
    after s4 W (Proc.devRef .tc main_v30)
      = addf (pairArray (W (Proc.devRef .tc main_v15)) (W (Proc.devRef .tc main_v17))) (pairArray (W (Proc.devRef .tc main_v19)) (W (Proc.devRef .tc main_v21))) := by
  dsimp only [s4]
  after_results
  rfl

set_option maxHeartbeats 4000000 in
/-- After the fourth stretch the distance of the two pairs' arrays. -/
theorem s4_arrayDist :
    after s4 W (Proc.devRef .tc main_v32)
      = Host.absf (subf (pairArray (W (Proc.devRef .tc main_v15)) (W (Proc.devRef .tc main_v17))) (pairArray (W (Proc.devRef .tc main_v19)) (W (Proc.devRef .tc main_v21)))) := by
  dsimp only [s4]
  after_results
  rfl

/-! The fourth stretch writes none of the four arguments. -/

set_option maxHeartbeats 4000000 in
theorem s4_keeps_x : after s4 W (Proc.devRef .tc main_arg0) = W (Proc.devRef .tc main_arg0) := by
  dsimp only [s4]
  after_results

set_option maxHeartbeats 4000000 in
theorem s4_keeps_idx : after s4 W (Proc.devRef .tc main_arg1) = W (Proc.devRef .tc main_arg1) := by
  dsimp only [s4]
  after_results

set_option maxHeartbeats 4000000 in
theorem s4_keeps_w : after s4 W (Proc.devRef .tc main_arg2) = W (Proc.devRef .tc main_arg2) := by
  dsimp only [s4]
  after_results

set_option maxHeartbeats 4000000 in
theorem s4_keeps_b : after s4 W (Proc.devRef .tc main_arg3) = W (Proc.devRef .tc main_arg3) := by
  dsimp only [s4]
  after_results

/-! ### Fifth stretch: the combined columns, the product, the bias

  The combined columns are the first operation of this stretch, so its three operands are read from the buffers
  before the stretch: the edge rows, the sum and the distance of the two arrays. -/

set_option maxHeartbeats 2000000 in
/-- After the fifth stretch the result is the last stage of the edge rows, the two arrays' sum and distance, the
    weights and the bias. -/
theorem s5_result :
    after s5 W (Proc.devRef .tc main_v38)
      = lastStage (W (Proc.devRef .tc main_arg0)) (W (Proc.devRef .tc main_v30)) (W (Proc.devRef .tc main_v32)) (W (Proc.devRef .tc main_arg2)) (W (Proc.devRef .tc main_arg3)) := by
  dsimp only [s5]
  after_results
  rfl

/-! The fifth stretch writes none of the four arguments. -/

set_option maxHeartbeats 2000000 in
theorem s5_keeps_x : after s5 W (Proc.devRef .tc main_arg0) = W (Proc.devRef .tc main_arg0) := by
  dsimp only [s5]
  after_results

set_option maxHeartbeats 2000000 in
theorem s5_keeps_idx : after s5 W (Proc.devRef .tc main_arg1) = W (Proc.devRef .tc main_arg1) := by
  dsimp only [s5]
  after_results

set_option maxHeartbeats 2000000 in
theorem s5_keeps_w : after s5 W (Proc.devRef .tc main_arg2) = W (Proc.devRef .tc main_arg2) := by
  dsimp only [s5]
  after_results

set_option maxHeartbeats 2000000 in
theorem s5_keeps_b : after s5 W (Proc.devRef .tc main_arg3) = W (Proc.devRef .tc main_arg3) := by
  dsimp only [s5]
  after_results

end Stretches

/-! ## The whole line

  The line is the five stretches one after the other, so the contents after it are the fifth stretch's over the
  fourth's over … over the launch contents.  Reading the result buffer stretch by stretch from the last one back
  replaces each buffer by the term of the stretch that wrote it, down to the four arguments at their launch
  contents: the last stage, of the sum and the distance of the two pairs' arrays, of the four rows, of the masked
  gathered rows — the reference's stages, one inside the other. -/

section Whole

variable (m : (ℓ : Loc nD τ sig) → Buf (Elt Ideal) ℓ)

/-- After the whole line the result buffer holds the reference's last stage of the four arguments. -/
theorem result_eq (c : Dev nD) :
    after (ops (F := Ideal)) (launchContents m c) (Proc.devRef .tc main_v38)
      = ReadP.val_main_v38 (F := Ideal) (m ((c.tc : Thread nD τ).loc main_arg0)) (m ((c.tc : Thread nD τ).loc main_arg1))
          (m ((c.tc : Thread nD τ).loc main_arg2)) (m ((c.tc : Thread nD τ).loc main_arg3)) := by
  rw [ops_cut]
  simp only [after_append]
  rw [s5_result, s4_arraySum, s4_arrayDist, s4_keeps_x, s4_keeps_w, s4_keeps_b,
    s3_row0, s3_row1, s3_row2, s3_row3, s3_keeps_x, s3_keeps_w, s3_keeps_b,
    s2_masked, s2_keeps_x, s2_keeps_w, s2_keeps_b,
    s1_gathered, s1_keeps_x, s1_keeps_idx, s1_keeps_w, s1_keeps_b]
  rfl

/-- After the whole line the edge rows are the launch contents: no stretch writes them. -/
theorem arg0_kept (c : Dev nD) :
    after (ops (F := Ideal)) (launchContents m c) (Proc.devRef .tc main_arg0) = m ((c.tc : Thread nD τ).loc main_arg0) := by
  rw [ops_cut]
  simp only [after_append]
  rw [s5_keeps_x, s4_keeps_x, s3_keeps_x, s2_keeps_x, s1_keeps_x]

/-- After the whole line the neighbour indices are the launch contents: no stretch writes them. -/
theorem arg1_kept (c : Dev nD) :
    after (ops (F := Ideal)) (launchContents m c) (Proc.devRef .tc main_arg1) = m ((c.tc : Thread nD τ).loc main_arg1) := by
  rw [ops_cut]
  simp only [after_append]
  rw [s5_keeps_idx, s4_keeps_idx, s3_keeps_idx, s2_keeps_idx, s1_keeps_idx]

/-- After the whole line the weights are the launch contents: no stretch writes them. -/
theorem arg2_kept (c : Dev nD) :
    after (ops (F := Ideal)) (launchContents m c) (Proc.devRef .tc main_arg2) = m ((c.tc : Thread nD τ).loc main_arg2) := by
  rw [ops_cut]
  simp only [after_append]
  rw [s5_keeps_w, s4_keeps_w, s3_keeps_w, s2_keeps_w, s1_keeps_w]

/-- After the whole line the bias are the launch contents: no stretch writes them. -/
theorem arg3_kept (c : Dev nD) :
    after (ops (F := Ideal)) (launchContents m c) (Proc.devRef .tc main_arg3) = m ((c.tc : Thread nD τ).loc main_arg3) := by
  rw [ops_cut]
  simp only [after_append]
  rw [s5_keeps_b, s4_keeps_b, s3_keeps_b, s2_keeps_b, s1_keeps_b]

set_option maxRecDepth 8192 in
set_option maxHeartbeats 2000000 in
/-- On every device, from any memory with zero counters: every weakly fair execution of the reference terminates with
    the result buffer at the reference's last stage of the arguments, and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v38)
          = ReadP.val_main_v38 (F := Ideal) (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v38).trans (result_eq m c),
      (h c main_arg0).trans (arg0_kept m c),
      (h c main_arg1).trans (arg1_kept m c),
      (h c main_arg2).trans (arg2_kept m c),
      (h c main_arg3).trans (arg3_kept m c)⟩)
    (run_seq scopedRefs_eq scopedSems_eq defs main (fun _ => ops) main_eq (fun _ => ops_sub) m ρ)

end Whole

end Cert.RefRun

end
-- ==== Proof.LibNary3.lean ====
/-
  A three-operand operation's result, with each operand's contents at its own reference.

  An operation over a family of operands hands its function the family of their contents, k ↦ (contents at operand k).
  For a literal family of three references the family of contents is the literal triple of the three contents: at
  k = 0, 1, 2 both give the contents at the first, the second, the third reference.  Stated with the triple, the
  contents of each operand stand at a literal reference and can be rewritten further one by one.
-/
import Idealize.ShloMosaic.Lib.StableHlo.Run

noncomputable section

namespace Cert.LibNary3

open Idealize.ShloMosaic Idealize.ShloMosaic.StableHlo

variable {τ : Topo} {sig : RefSig} {Val : EltTy → Type} {x a b y : Ref sig .tc}

/-- The result of an operation over the literal family of three references x, a, b: its function at the triple of
    the contents at x, at a and at b. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]
  congr 1
  funext k
  fin_cases k <;> rfl

end Cert.LibNary3

end
-- ==== Proof.lean ====
/-
  The certificate's claim: a graph-convolution layer over 1000000 edges.

  For every edge e and output channel o both programs compute
      ∑ (k < 32) x (e, k) · W (o, k)  +  ∑ (s = 1 … 4) ∑ (k < 32) fₛ (e, k) · W (o, 32·s + k)  +  b (o)
  on the extended reals, where f₁ … f₄ are, channel by channel, the four features
      (a₀ + a₁) + (b₀ + b₁),  |a₀ − a₁| + |b₀ − b₁|,  |(a₀ + a₁) − (b₀ + b₁)|,  ||a₀ − a₁| − |b₀ − b₁||
  of the four neighbour rows a₀ a₁ b₀ b₁ gathered for the edge (a row of zeros for a negative index).
  The kernel forms the five group sums separately, one matrix product per group over blocks of 4000 edges, and adds them
  from the left; the reference lays the 160 features side by side and forms one product. The two agree because a sum
  over 160 terms is the sum of its five consecutive groups of 32 (associativity and commutativity of addition on
  the extended reals: nothing is distributed or cancelled, so the precondition is never opened).
  The modules: Spec (the function and the splitting of the sum), Body (what the kernel body stores at one entry of
  its block), HostStage (what the windows find in their arrays), Blocks (from the blocks to the whole array),
  Gathered (the gathered rows are one term in both programs), RefSide (the reference's stages are the function),
  RefRun (the reference's run). LibPlainDot and LibNary3 are general lemmas (a plain matrix product at an entry; an operation over
  three literal operands), the latter not needed by this proof.
-/
import proofs.«142596_j69956427317463_2_alg».proof.Defs
import proofs.«142596_j69956427317463_2_alg».proof.Proof.Gen.Kernel
import proofs.«142596_j69956427317463_2_alg».proof.Proof.Gen.Kernel.Frame
import proofs.«142596_j69956427317463_2_alg».proof.Proof.Gen.KernelIdeal
import proofs.«142596_j69956427317463_2_alg».proof.Proof.Gen.KernelIdeal.Frame
import proofs.«142596_j69956427317463_2_alg».proof.Proof.Gen.ReferenceIdeal
import proofs.«142596_j69956427317463_2_alg».proof.Proof.Gen.Pre_finite_inputs
import proofs.«142596_j69956427317463_2_alg».proof.Proof.Blocks
import proofs.«142596_j69956427317463_2_alg».proof.Proof.Gathered
import proofs.«142596_j69956427317463_2_alg».proof.Proof.RefSide
import proofs.«142596_j69956427317463_2_alg».proof.Proof.RefRun
import proofs.«142596_j69956427317463_2_alg».proof.Proof.LibNary3
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run with the result dropped. -/
theorem frame_reference : Cert.frame_ReferenceIdeal := fun m ρ _ =>
  (θ_run Cert.ReferenceIdeal.defs _ _).mono (fun _ h c => (h c).2) (Cert.RefRun.run m ρ)

/-- The ideal pass rewrote nothing: there is nothing to preserve. -/
theorem preserves : Cert.preserves_Kernel_KernelIdeal := trivial

/-- Both runs end with the result array at the one function of the arguments: the kernel's blocks tile it, the
    reference's stages compute it, and the gathered rows are the same term of the same arguments. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (Cert.HostStage.nbr m c) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), Cert.Blocks.run m ρ, ?_⟩
  refine (θ_run Cert.ReferenceIdeal.defs _ _).mono (fun _ h c => ⟨(h c).1.trans ?_, (h c).2⟩) (Cert.RefRun.run m' ρ')
  rw [Cert.RefSide.ref_is_G, (hagree c).1, (hagree c).2.1, (hagree c).2.2.1, (hagree c).2.2.2]
  show _ = Cert.Spec.G _ (Cert.HostStage.nbr m c) _ _
  rw [Cert.Gathered.nbr_is_reference]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
